-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S8192x128 : Shape := ⟨2, ![8192, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S8192x512 .f32) (main_arg1 : IVec S2x262144 32) (main_arg2 : FVec F S8192x128 .f32) (main_arg3 : FVec F S512x256 .f32) (main_arg4 : FVec F S256 .f32) (main_arg5 : FVec F S256x128 .f32) (main_arg6 : FVec F S128 .f32) (main_arg7 : FVec F S256x128 .f32) (main_arg8 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S8192x512 : Shape := ⟨2, ![8192, 512]⟩
abbrev S2x262144 : Shape := ⟨2, ![2, 262144]⟩
abbrev S8192x128 : Shape := ⟨2, ![8192, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x256 : Shape := ⟨2, ![8192, 256]⟩
abbrev S2048x512 : Shape := ⟨2, ![2048, 512]⟩
abbrev S2048x256 : Shape := ⟨2, ![2048, 256]⟩
abbrev S270336x256 : Shape := ⟨2, ![270336, 256]⟩
abbrev S1x256 : Shape := ⟨2, ![1, 256]⟩
abbrev S256x256 : Shape := ⟨2, ![256, 256]⟩
abbrev S1x128 : Shape := ⟨2, ![1, 128]⟩
abbrev S8192x8192 : Shape := ⟨2, ![8192, 8192]⟩
abbrev S2048x128 : Shape := ⟨2, ![2048, 128]⟩
abbrev S1024x128 : Shape := ⟨2, ![1024, 128]⟩
abbrev S2048x1024 : Shape := ⟨2, ![2048, 1024]⟩
abbrev S128x1024 : Shape := ⟨2, ![128, 1024]⟩

abbrev nBuf : Space → Nat
  | .hbm => 101
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S8192x128, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S8192, .i32⟩
  | .hbm, ⟨14, _⟩ => ⟨S270336, .i32⟩
  | .hbm, ⟨15, _⟩ => ⟨S270336, .i32⟩
  | .hbm, ⟨16, _⟩ => ⟨S_, .f32⟩
  | .hbm, ⟨17, _⟩ => ⟨S270336, .f32⟩
  | .hbm, ⟨18, _⟩ => ⟨S_, .f32⟩
  | .hbm, ⟨19, _⟩ => ⟨S8192, .f32⟩
  | .hbm, ⟨20, _⟩ => ⟨S270336x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .i1⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S270336, .i32⟩
  | .hbm, ⟨31, _⟩ => ⟨S270336, .i1⟩
  | .hbm, ⟨32, _⟩ => ⟨S_, .i32⟩
  | .hbm, ⟨33, _⟩ => ⟨S270336, .i32⟩
  | .hbm, ⟨34, _⟩ => ⟨S270336, .i32⟩
  | .hbm, ⟨35, _⟩ => ⟨S270336, .i32⟩
  | .hbm, ⟨36, _⟩ => ⟨S270336x1, .i32⟩
  | .hbm, ⟨37, _⟩ => ⟨S270336, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336, .f32⟩
  | .hbm, ⟨47, _⟩ => ⟨S270336, .f32⟩
  | .hbm, ⟨48, _⟩ => ⟨S8192x256, .f32⟩
  | .hbm, ⟨49, _⟩ => ⟨S_, .i32⟩
  | .hbm, ⟨50, _⟩ => ⟨S270336, .i32⟩
  | .hbm, ⟨51, _⟩ => ⟨S270336, .i1⟩
  | .hbm, ⟨52, _⟩ => ⟨S_, .i32⟩
  | .hbm, ⟨53, _⟩ => ⟨S270336, .i32⟩
  | .hbm, ⟨54, _⟩ => ⟨S270336, .i32⟩
  | .hbm, ⟨55, _⟩ => ⟨S270336, .i32⟩
  | .hbm, ⟨56, _⟩ => ⟨S270336x1, .i32⟩
  | .hbm, ⟨57, _⟩ => ⟨S270336x256, .f32⟩
  | .hbm, ⟨58, _⟩ => ⟨S270336x1, .f32⟩
  | .hbm, ⟨59, _⟩ => ⟨S270336x256, .f32⟩
  | .hbm, ⟨60, _⟩ => ⟨S270336x256, .f32⟩
  | .hbm, ⟨61, _⟩ => ⟨S_, .f32⟩
  | .hbm, ⟨62, _⟩ => ⟨S8192x256, .f32⟩
  | .hbm, ⟨63, _⟩ => ⟨S270336x1, .i32⟩
  | .hbm, ⟨64, _⟩ => ⟨S8192x256, .f32⟩
  | .hbm, ⟨65, _⟩ => ⟨S1x256, .f32⟩
  | .hbm, ⟨66, _⟩ => ⟨S8192x256, .f32⟩
  | .hbm, ⟨67, _⟩ => ⟨S8192x256, .f32⟩
  | .hbm, ⟨68, _⟩ => ⟨S_, .f32⟩
  | .hbm, ⟨69, _⟩ => ⟨S8192x256, .f32⟩
  | .hbm, ⟨70, _⟩ => ⟨S8192x256, .f32⟩
  | .hbm, ⟨71, _⟩ => ⟨S256x256, .f32⟩
  | .hbm, ⟨72, _⟩ => ⟨S8192x256, .f32⟩
  | .hbm, ⟨73, _⟩ => ⟨S_, .i32⟩
  | .hbm, ⟨74, _⟩ => ⟨S270336, .i32⟩
  | .hbm, ⟨75, _⟩ => ⟨S270336, .i1⟩
  | .hbm, ⟨76, _⟩ => ⟨S_, .i32⟩
  | .hbm, ⟨77, _⟩ => ⟨S270336, .i32⟩
  | .hbm, ⟨78, _⟩ => ⟨S270336, .i32⟩
  | .hbm, ⟨79, _⟩ => ⟨S270336, .i32⟩
  | .hbm, ⟨80, _⟩ => ⟨S270336x1, .i32⟩
  | .hbm, ⟨81, _⟩ => ⟨S270336x256, .f32⟩
  | .hbm, ⟨82, _⟩ => ⟨S270336x1, .f32⟩
  | .hbm, ⟨83, _⟩ => ⟨S270336x256, .f32⟩
  | .hbm, ⟨84, _⟩ => ⟨S270336x256, .f32⟩
  | .hbm, ⟨85, _⟩ => ⟨S_, .f32⟩
  | .hbm, ⟨86, _⟩ => ⟨S8192x256, .f32⟩
  | .hbm, ⟨87, _⟩ => ⟨S270336x1, .i32⟩
  | .hbm, ⟨88, _⟩ => ⟨S8192x256, .f32⟩
  | .hbm, ⟨89, _⟩ => ⟨S8192x128, .f32⟩
  | .hbm, ⟨90, _⟩ => ⟨S1x128, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S1x128, .f32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S8192x128, .f32⟩
  | .hbm, ⟨100, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S2048x128, .f32⟩
  | .local _ .vmem, ⟨11, _⟩ => ⟨S2048x128, .f32⟩
  | .local _ .vmem, ⟨12, _⟩ => ⟨S1024x128, .f32⟩
  | .local _ .vmem, ⟨13, _⟩ => ⟨S1024x128, .f32⟩
  | .local _ .vmem, ⟨14, _⟩ => ⟨S2048x1024, .f32⟩
  | .local _ .vmem, ⟨15, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  concatenates_S256x128_S256x128_S256x256_d1 : Shape.Concatenates [S256x128, S256x128] S256x256 1
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x128_0_0 : S8192x256.Slices ![0, 0] S8192x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S8192x256_S8192x128_0_128 : S8192x256.Slices ![0, 128] S8192x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S2048x1024_S2048x1024_0_0 : ∀ a, (![0, 0] : Fin 2 → Nat) a + S2048x1024.size a ≤ S2048x1024.size a
  h_S2048x1024 : 0 < S2048x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S2048x512_S512x256_S2048x256_1_0_0_1_n_n_wf : DotDims.WF S2048x512 S512x256 S2048x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S2048x256_S256x256_S2048x256_1_0_0_1_n_n_wf : DotDims.WF S2048x256 S256x256 S2048x256 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x8192.size a
  hwx2_2 : ∀ i : grid2.Coords, EltTy.bits .f32 = 32 ∨ (Rect.block (s := S8192x8192) S2048x1024.size (cc2_transform_2 i) (hinb2_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v73) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S8192x128 : Shape := ⟨2, ![8192, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x262144 : Shape := ⟨2, ![1, 262144]⟩
abbrev S262144 : Shape := ⟨1, ![262144]⟩
abbrev S8192x256 : Shape := ⟨2, ![8192, 256]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 194
  | .vmem => 0
  | .smem => 0
  | _ => 0

abbrev hbmTy0_0 (i : Nat) : BufTy := match i % 128 with
  | 0 => ⟨S8192x512, .f32⟩
  | 1 => ⟨S2x262144, .i32⟩
  | 2 => ⟨S8192x128, .f32⟩
  | 3 => ⟨S512x256, .f32⟩
  | 4 => ⟨S256, .f32⟩
  | 5 => ⟨S256x128, .f32⟩
  | 6 => ⟨S128, .f32⟩
  | 7 => ⟨S256x128, .f32⟩
  | 8 => ⟨S128, .f32⟩
  | 9 => ⟨S1x262144, .i32⟩
  | 10 => ⟨S262144, .i32⟩
  | 11 => ⟨S1x262144, .i32⟩
  | 12 => ⟨S262144, .i32⟩
  | 13 => ⟨S8192x256, .f32⟩
  | 14 => ⟨S8192, .i32⟩
  | 15 => ⟨S270336, .i32⟩
  | 16 => ⟨S270336, .i32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S8192, .f32⟩
  | 29 => ⟨S8192, .f32⟩
  | 30 => ⟨S_, .i32⟩
  | 31 => ⟨S270336, .i32⟩
  | 32 => ⟨S270336, .i1⟩
  | 33 => ⟨S_, .i32⟩
  | 34 => ⟨S270336, .i32⟩
  | 35 => ⟨S270336, .i32⟩
  | 36 => ⟨S270336, .i32⟩
  | 37 => ⟨S270336x1, .i32⟩
  | 38 => ⟨S270336, .f32⟩
  | 39 => ⟨S_, .i32⟩
  | 40 => ⟨S270336, .i32⟩
  | 41 => ⟨S270336, .i1⟩
  | 42 => ⟨S_, .i32⟩
  | 43 => ⟨S270336, .i32⟩
  | 44 => ⟨S270336, .i32⟩
  | 45 => ⟨S270336, .i32⟩
  | 46 => ⟨S270336x1, .i32⟩
  | 47 => ⟨S270336, .f32⟩
  | 48 => ⟨S270336, .f32⟩
  | 49 => ⟨S_, .i32⟩
  | 50 => ⟨S270336, .i32⟩
  | 51 => ⟨S270336, .i1⟩
  | 52 => ⟨S_, .i32⟩
  | 53 => ⟨S270336, .i32⟩
  | 54 => ⟨S270336, .i32⟩
  | 55 => ⟨S270336, .i32⟩
  | 56 => ⟨S270336x1, .i32⟩
  | 57 => ⟨S270336x256, .f32⟩
  | 58 => ⟨S270336x1, .f32⟩
  | 59 => ⟨S270336x256, .f32⟩
  | 60 => ⟨S270336x256, .f32⟩
  | 61 => ⟨S_, .f32⟩
  | 62 => ⟨S8192x256, .f32⟩
  | 63 => ⟨S270336x1, .i32⟩
  | 64 => ⟨S8192x256, .f32⟩
  | 65 => ⟨S1x256, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x128, .f32⟩
  | 72 => ⟨S8192, .i32⟩
  | 73 => ⟨S270336, .i32⟩
  | 74 => ⟨S270336, .i32⟩
  | 75 => ⟨S_, .f32⟩
  | 76 => ⟨S270336, .f32⟩
  | 77 => ⟨S_, .f32⟩
  | 78 => ⟨S8192, .f32⟩
  | 79 => ⟨S270336x1, .i32⟩
  | 80 => ⟨S8192, .f32⟩
  | 81 => ⟨S_, .f32⟩
  | 82 => ⟨S8192, .f32⟩
  | 83 => ⟨S8192, .i1⟩
  | 84 => ⟨S8192, .f32⟩
  | 85 => ⟨S_, .f32⟩
  | 86 => ⟨S8192, .f32⟩
  | 87 => ⟨S8192, .f32⟩
  | 88 => ⟨S_, .i32⟩
  | 89 => ⟨S270336, .i32⟩
  | 90 => ⟨S270336, .i1⟩
  | 91 => ⟨S_, .i32⟩
  | 92 => ⟨S270336, .i32⟩
  | 93 => ⟨S270336, .i32⟩
  | 94 => ⟨S270336, .i32⟩
  | 95 => ⟨S270336x1, .i32⟩
  | 96 => ⟨S270336, .f32⟩
  | 97 => ⟨S_, .i32⟩
  | 98 => ⟨S270336, .i32⟩
  | 99 => ⟨S270336, .i1⟩
  | 100 => ⟨S_, .i32⟩
  | 101 => ⟨S270336, .i32⟩
  | 102 => ⟨S270336, .i32⟩
  | 103 => ⟨S270336, .i32⟩
  | 104 => ⟨S270336x1, .i32⟩
  | 105 => ⟨S270336, .f32⟩
  | 106 => ⟨S270336, .f32⟩
  | 107 => ⟨S_, .i32⟩
  | 108 => ⟨S270336, .i32⟩
  | 109 => ⟨S270336, .i1⟩
  | 110 => ⟨S_, .i32⟩
  | 111 => ⟨S270336, .i32⟩
  | 112 => ⟨S270336, .i32⟩
  | 113 => ⟨S270336, .i32⟩
  | 114 => ⟨S270336x1, .i32⟩
  | 115 => ⟨S270336x128, .f32⟩
  | 116 => ⟨S270336x1, .f32⟩
  | 117 => ⟨S270336x128, .f32⟩
  | 118 => ⟨S270336x128, .f32⟩
  | 119 => ⟨S_, .f32⟩
  | 120 => ⟨S8192x128, .f32⟩
  | 121 => ⟨S270336x1, .i32⟩
  | 122 => ⟨S8192x128, .f32⟩
  | 123 => ⟨S1x128, .f32⟩
  | 124 => ⟨S8192x128, .f32⟩
  | 125 => ⟨S8192x128, .f32⟩
  | 126 => ⟨S8192x128, .f32⟩
  | 127 => ⟨S8192, .i32⟩
  | _ => ⟨S8192x512, .f32⟩

abbrev hbmTy0_1 (i : Nat) : BufTy := match i % 128 with
  | 0 => ⟨S270336, .i32⟩
  | 1 => ⟨S270336, .i32⟩
  | 2 => ⟨S_, .f32⟩
  | 3 => ⟨S270336, .f32⟩
  | 4 => ⟨S_, .f32⟩
  | 5 => ⟨S8192, .f32⟩
  | 6 => ⟨S270336x1, .i32⟩
  | 7 => ⟨S8192, .f32⟩
  | 8 => ⟨S_, .f32⟩
  | 9 => ⟨S8192, .f32⟩
  | 10 => ⟨S8192, .i1⟩
  | 11 => ⟨S8192, .f32⟩
  | 12 => ⟨S_, .f32⟩
  | 13 => ⟨S8192, .f32⟩
  | 14 => ⟨S8192, .f32⟩
  | 15 => ⟨S_, .i32⟩
  | 16 => ⟨S270336, .i32⟩
  | 17 => ⟨S270336, .i1⟩
  | 18 => ⟨S_, .i32⟩
  | 19 => ⟨S270336, .i32⟩
  | 20 => ⟨S270336, .i32⟩
  | 21 => ⟨S270336, .i32⟩
  | 22 => ⟨S270336x1, .i32⟩
  | 23 => ⟨S270336, .f32⟩
  | 24 => ⟨S_, .i32⟩
  | 25 => ⟨S270336, .i32⟩
  | 26 => ⟨S270336, .i1⟩
  | 27 => ⟨S_, .i32⟩
  | 28 => ⟨S270336, .i32⟩
  | 29 => ⟨S270336, .i32⟩
  | 30 => ⟨S270336, .i32⟩
  | 31 => ⟨S270336x1, .i32⟩
  | 32 => ⟨S270336, .f32⟩
  | 33 => ⟨S270336, .f32⟩
  | 34 => ⟨S_, .i32⟩
  | 35 => ⟨S270336, .i32⟩
  | 36 => ⟨S270336, .i1⟩
  | 37 => ⟨S_, .i32⟩
  | 38 => ⟨S270336, .i32⟩
  | 39 => ⟨S270336, .i32⟩
  | 40 => ⟨S270336, .i32⟩
  | 41 => ⟨S270336x1, .i32⟩
  | 42 => ⟨S270336x128, .f32⟩
  | 43 => ⟨S270336x1, .f32⟩
  | 44 => ⟨S270336x128, .f32⟩
  | 45 => ⟨S270336x128, .f32⟩
  | 46 => ⟨S_, .f32⟩
  | 47 => ⟨S8192x128, .f32⟩
  | 48 => ⟨S270336x1, .i32⟩
  | 49 => ⟨S8192x128, .f32⟩
  | 50 => ⟨S1x128, .f32⟩
  | 51 => ⟨S8192x128, .f32⟩
  | 52 => ⟨S8192x128, .f32⟩
  | 53 => ⟨S8192x128, .f32⟩
  | 54 => ⟨S8192x128, .f32⟩
  | 55 => ⟨S8192x128, .f32⟩
  | 56 => ⟨S128x8192, .f32⟩
  | 57 => ⟨S8192x8192, .f32⟩
  | 58 => ⟨S8192x8192, .f32⟩
  | 59 => ⟨S8192x8192, .f32⟩
  | 60 => ⟨S_, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_23 : Ref sig .tc := ⟨.hbm, 140, rfl⟩
abbrev main_call3_v0 : Ref sig .tc := ⟨.hbm, 141, rfl⟩
abbrev main_v102 : Ref sig .tc := ⟨.hbm, 142, rfl⟩
abbrev main_c_24 : Ref sig .tc := ⟨.hbm, 143, rfl⟩
abbrev main_v103 : Ref sig .tc := ⟨.hbm, 144, rfl⟩
abbrev main_v104 : Ref sig .tc := ⟨.hbm, 145, rfl⟩
abbrev main_c_25 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_26 : Ref sig .tc := ⟨.hbm, 152, rfl⟩
abbrev main_v110 : Ref sig .tc := ⟨.hbm, 153, rfl⟩
abbrev main_v111 : Ref sig .tc := ⟨.hbm, 154, rfl⟩
abbrev main_c_27 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_28 : Ref sig .tc := ⟨.hbm, 162, rfl⟩
abbrev main_v118 : Ref sig .tc := ⟨.hbm, 163, rfl⟩
abbrev main_v119 : Ref sig .tc := ⟨.hbm, 164, rfl⟩
abbrev main_c_29 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_30 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_31 : Ref sig .tc := ⟨.hbm, 188, rfl⟩
abbrev main_v141 : Ref sig .tc := ⟨.hbm, 189, rfl⟩
abbrev main_v142 : Ref sig .tc := ⟨.hbm, 190, rfl⟩
abbrev main_cst_32 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x128_S8192x128_1_0_0_1_n_n_wf : DotDims.WF S8192x256 S256x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Body0.lean ====
/-
  Layer 1's dense product, one grid point at a time. The call tiles x : [8192, 512] by blocks of 2048 rows, keeps the
  weights [512, 256] resident, and at each point stores the product of the row block with the weights into the
  matching 2048-row block of the result. This module runs the body once, on any staging buffers (it loads both
  blocks whole and overwrites the output buffer whole with the payload), and packages that as the pipeline's
  per-point obligation.
-/
import proofs.«137605_j893353197865_1_alg».proof.Proof.Gen.Kernel.Launch
import proofs.«137605_j893353197865_1_alg».proof.Proof.Gen.Kernel.Skeleton
import proofs.«137605_j893353197865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not: where it
    is not fetched the block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S2048x512 := Rect.unit (s := S2048x512) ![0, 0] S2048x512.size inb_S2048x512_S2048x512_0_0
abbrev r0_b : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output window's staging buffer, from the two input blocks: its one whole-buffer
    store of the payload. -/
def out0_2 (x0 : Vec F S2048x512 .f32) (x1 : Vec F S512x256 .f32) : Vec F S2048x256 .f32 :=
  View.canon [⟨r0_o, k0_pay1 (View.ld x0 r0_a) (View.ld x1 r0_b)⟩]

/-- The one store covers the buffer. -/
theorem cover0_2 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords)
    (a1 : Memref sig .tc .vmem S2048x512 .f32) (ha1 : a1.IsWhole) (a2 : Memref sig .tc .vmem S512x256 .f32) (ha2 : a2.IsWhole)
    (a3 : Memref sig .tc .vmem S2048x256 .f32) (ha3 : a3.IsWhole)
    (x0 : Vec F S2048x512 .f32) (x1 : Vec F S512x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0_2 x0 x1)) -∗ K ⟨⟩))
      ⊢ wp frame (wpE (defs₀ (F := F)) Variants.none c none) E (cc0__matmul_kernel i a1 ha1 a2 ha2 a3 ha3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` each
    input window's buffer still at its block and the output window's at `out0_2` of the two input blocks; the
    invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Layer 2's dense product, one grid point at a time. The call tiles h : [8192, 256] by blocks of 2048 rows, keeps the
  concatenated weights [256, 256] resident, and at each point stores the product of the row block with the weights
  into the matching 2048-row block of the result. This module runs the body once, on any staging buffers, and
  packages that as the pipeline's per-point obligation.
-/
import proofs.«137605_j893353197865_1_alg».proof.Proof.Gen.Kernel.Launch
import proofs.«137605_j893353197865_1_alg».proof.Proof.Gen.Kernel.Skeleton
import proofs.«137605_j893353197865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not: where it
    is not fetched the block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S2048x256 := Rect.unit (s := S2048x256) ![0, 0] S2048x256.size inb_S2048x256_S2048x256_0_0
abbrev r1_b : Rect S256x256 := Rect.unit (s := S256x256) ![0, 0] S256x256.size inb_S256x256_S256x256_0_0
abbrev r1_o : Rect S2048x256 := Rect.unit (s := S2048x256) ![0, 0] S2048x256.size inb_S2048x256_S2048x256_0_0

/-- What the body leaves in the output window's staging buffer, from the two input blocks: its one whole-buffer
    store of the payload. -/
def out1_2 (x0 : Vec F S2048x256 .f32) (x1 : Vec F S256x256 .f32) : Vec F S2048x256 .f32 :=
  View.canon [⟨r1_o, k1_pay1 (View.ld x0 r1_a) (View.ld x1 r1_b)⟩]

/-- The one store covers the buffer. -/
theorem cover1_2 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords)
    (a1 : Memref sig .tc .vmem S2048x256 .f32) (ha1 : a1.IsWhole) (a2 : Memref sig .tc .vmem S256x256 .f32) (ha2 : a2.IsWhole)
    (a3 : Memref sig .tc .vmem S2048x256 .f32) (ha3 : a3.IsWhole)
    (x0 : Vec F S2048x256 .f32) (x1 : Vec F S256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1_2 x0 x1)) -∗ K ⟨⟩))
      ⊢ wp frame (wpE (defs₀ (F := F)) Variants.none c none) E (cc1__matmul_kernel i a1 ha1 a2 ha2 a3 ha3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` each
    input window's buffer still at its block and the output window's at `out1_2` of the two input blocks; the
    invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The decoder, one grid point at a time. The call reads z : [8192, 128] through two windows, a block of 2048 rows
  (index i) and a block of 1024 rows (index j), and at point (i, j) stores sigmoid(z_i z_j^T) into block (i, j) of the
  [8192, 8192] result. Both input windows sit on the same array, so each holds it at half the share. This module
  runs the body once, on any staging buffers, and packages that as the pipeline's per-point obligation.
-/
import proofs.«137605_j893353197865_1_alg».proof.Proof.Gen.Kernel.Launch
import proofs.«137605_j893353197865_1_alg».proof.Proof.Gen.Kernel.Skeleton
import proofs.«137605_j893353197865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not: where it
    is not fetched the block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S2048x128 := Rect.unit (s := S2048x128) ![0, 0] S2048x128.size inb_S2048x128_S2048x128_0_0
abbrev r2_b : Rect S1024x128 := Rect.unit (s := S1024x128) ![0, 0] S1024x128.size inb_S1024x128_S1024x128_0_0
abbrev r2_o : Rect S2048x1024 := Rect.unit (s := S2048x1024) ![0, 0] S2048x1024.size inb_S2048x1024_S2048x1024_0_0

/-- What the body leaves in the output window's staging buffer, from the two input blocks: its one whole-buffer
    store of the payload. -/
def out2_2 (x0 : Vec F S2048x128 .f32) (x1 : Vec F S1024x128 .f32) : Vec F S2048x1024 .f32 :=
  View.canon [⟨r2_o, k2_pay1 (View.ld x0 r2_a) (View.ld x1 r2_b)⟩]

/-- The one store covers the buffer. -/
theorem cover2_2 (p0 : Vec F S2048x1024 .f32) (y : S2048x1024.Idx) :
    ∃ pc ∈ ([⟨r2_o, p0⟩] : List (View.Piece (Elt F) S2048x1024 .f32)), y ∈ pc.1.set :=
  View.cover_of_tiled [⟨r2_o, p0⟩] S2048x1024.size (by rfl) y

set_option maxHeartbeats 1000000 in
/-- The body on whole staging memrefs, the inputs' at contents `x0`, `x1` and the output's at anything, runs to the
    continuation with the inputs' as they were and the output's at `out2_2 x0 x1`. -/
theorem sound_kernel2 (c : Dev nD) (E : Set ℕ) (i : grid2.Coords)
    (a1 : Memref sig .tc .vmem S2048x128 .f32) (ha1 : a1.IsWhole) (a2 : Memref sig .tc .vmem S1024x128 .f32) (ha2 : a2.IsWhole)
    (a3 : Memref sig .tc .vmem S2048x1024 .f32) (ha3 : a3.IsWhole)
    (x0 : Vec F S2048x128 .f32) (x1 : Vec F S1024x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out2_2 x0 x1)) -∗ K ⟨⟩))
      ⊢ wp frame (wpE (defs₀ (F := F)) Variants.none c none) E (cc2__decode_kernel i a1 ha1 a2 ha2 a3 ha3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` each
    input window's buffer still at its block and the output window's at `out2_2` of the two input blocks; the
    invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program on a core: host lines, the layer-1 product, host lines (the graph aggregation, bias, relu, the
  weight concatenation), the layer-2 product, host lines (aggregation, the two column halves, the reparametrisation),
  the decoder. The buffers' contents at each boundary are a fold from the launch memory: a host stretch applies its
  operations; a call leaves every buffer as it found it except its result array, which ends at what the call's
  write-backs leave. The decoder reads z through two windows on one array: at its entry the array's ownership is cut
  into two halves, one per window, and at its exit the halves are put back together.
-/
import proofs.«137605_j893353197865_1_alg».proof.Proof.Gen.Kernel.Launch
import proofs.«137605_j893353197865_1_alg».proof.Proof.Gen.Kernel.Skeleton
import proofs.«137605_j893353197865_1_alg».proof.Proof.Gen.Kernel.Points
import proofs.«137605_j893353197865_1_alg».proof.Proof.Gen.Kernel.Regions
import proofs.«137605_j893353197865_1_alg».proof.Proof.K.Body0
import proofs.«137605_j893353197865_1_alg».proof.Proof.K.Body1
import proofs.«137605_j893353197865_1_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- After the layer-1 product: its result array at what the write-backs leave, everything else as found. -/
def W4 (c : Dev nD) : Valuation τ sig (Elt F) :=
  Function.update (W3 m c) (Proc.devRef .tc main_v30) ((dat0 (V3 m) c).arrAt 2 cfg0.N)
abbrev V4 : (c : Dev nD) → (b : Ref sig .tc) → Buf (Elt F) ((c : Thread nD τ).loc b) := fun c b => W4 m c b
abbrev W5 : Dev nD → Valuation τ sig (Elt F) := fun c => StableHlo.after hostOps1 (W4 m c)
abbrev W6 : Dev nD → Valuation τ sig (Elt F) := fun c => StableHlo.after hostOps1_1 (W5 m c)
abbrev W7 : Dev nD → Valuation τ sig (Elt F) := fun c => StableHlo.after hostOps1_2 (W6 m c)
abbrev V7 : (c : Dev nD) → (b : Ref sig .tc) → Buf (Elt F) ((c : Thread nD τ).loc b) := fun c b => W7 m c b
/-- After the layer-2 product. -/
def W8 (c : Dev nD) : Valuation τ sig (Elt F) :=
  Function.update (W7 m c) (Proc.devRef .tc main_v49) ((dat1 (V7 m) c).arrAt 2 cfg1.N)
abbrev V8 : (c : Dev nD) → (b : Ref sig .tc) → Buf (Elt F) ((c : Thread nD τ).loc b) := fun c b => W8 m c b
abbrev W9 : Dev nD → Valuation τ sig (Elt F) := fun c => StableHlo.after hostOps2 (W8 m c)
abbrev V9 : (c : Dev nD) → (b : Ref sig .tc) → Buf (Elt F) ((c : Thread nD τ).loc b) := fun c b => W9 m c b
/-- After the decoder. -/
def W10 (c : Dev nD) : Valuation τ sig (Elt F) :=
  Function.update (W9 m c) (Proc.devRef .tc main_v74) ((dat2 (V9 m) c).arrAt 2 cfg2.N)
abbrev V10 : (c : Dev nD) → (b : Ref sig .tc) → Buf (Elt F) ((c : Thread nD τ).loc b) := fun c b => W10 m c b

theorem W4_out (c : Dev nD) : W4 m c (Proc.devRef .tc main_v30) = (dat0 (V3 m) c).arrAt 2 cfg0.N := by
  unfold W4; exact Function.update_self _ _ _
theorem W4_of_ne (c : Dev nD) (b : Ref sig .tc) (hb : b ≠ main_v30) : W4 m c (Proc.devRef .tc b) = W3 m c (Proc.devRef .tc b) := by
  unfold W4; exact Function.update_of_ne (StableHlo.devRef_ne_of_ne hb) _ _
theorem W8_out (c : Dev nD) : W8 m c (Proc.devRef .tc main_v49) = (dat1 (V7 m) c).arrAt 2 cfg1.N := by
  unfold W8; exact Function.update_self _ _ _
theorem W8_of_ne (c : Dev nD) (b : Ref sig .tc) (hb : b ≠ main_v49) : W8 m c (Proc.devRef .tc b) = W7 m c (Proc.devRef .tc b) := by
  unfold W8; exact Function.update_of_ne (StableHlo.devRef_ne_of_ne hb) _ _
theorem W10_out (c : Dev nD) : W10 m c (Proc.devRef .tc main_v74) = (dat2 (V9 m) c).arrAt 2 cfg2.N := by
  unfold W10; exact Function.update_self _ _ _
theorem W10_of_ne (c : Dev nD) (b : Ref sig .tc) (hb : b ≠ main_v74) : W10 m c (Proc.devRef .tc b) = W9 m c (Proc.devRef .tc b) := by
  unfold W10; exact Function.update_of_ne (StableHlo.devRef_ne_of_ne hb) _ _

/-- At the layer-1 product's exit each of its arrays holds what the pipeline leaves (an input array is never
    written), and every other buffer what it held at entry. -/
theorem hF0 (c : Dev nD) (w : Fin cfg0.W) : (dat0 (V3 m) c).arrAt w cfg0.N = V4 m c (Pipeline.arrRef spec0 w) :=
  match w with
  | ⟨0, _⟩ => ((dat0 (V3 m) c).arrAt_in 0 rfl _).trans ((A_eq0 (V3 m) c 0).trans (W4_of_ne m c main_arg0 (by decide)).symm)
  | ⟨1, _⟩ => ((dat0 (V3 m) c).arrAt_in 1 rfl _).trans ((A_eq0 (V3 m) c 1).trans (W4_of_ne m c main_arg3 (by decide)).symm)
  | ⟨2, _⟩ => (W4_out m c).symm
theorem hrest0 (c : Dev nD) : ∀ b, b ∉ Finset.univ.image (Pipeline.arrRef spec0) → V4 m c b = V3 m c b :=
  fun b hb => W4_of_ne m c b fun e => hb (Finset.mem_image.mpr ⟨2, Finset.mem_univ _, e.symm⟩)
theorem hF1 (c : Dev nD) (w : Fin cfg1.W) : (dat1 (V7 m) c).arrAt w cfg1.N = V8 m c (Pipeline.arrRef spec1 w) :=
  match w with
  | ⟨0, _⟩ => ((dat1 (V7 m) c).arrAt_in 0 rfl _).trans ((A_eq1 (V7 m) c 0).trans (W8_of_ne m c main_v47 (by decide)).symm)
  | ⟨1, _⟩ => ((dat1 (V7 m) c).arrAt_in 1 rfl _).trans ((A_eq1 (V7 m) c 1).trans (W8_of_ne m c main_v48 (by decide)).symm)
  | ⟨2, _⟩ => (W8_out m c).symm
theorem hrest1 (c : Dev nD) : ∀ b, b ∉ Finset.univ.image (Pipeline.arrRef spec1) → V8 m c b = V7 m c b :=
  fun b hb => W8_of_ne m c b fun e => hb (Finset.mem_image.mpr ⟨2, Finset.mem_univ _, e.symm⟩)
theorem hrest2 (c : Dev nD) : ∀ b, b ∉ Finset.univ.image (Pipeline.arrRef spec2) → V10 m c b = V9 m c b :=
  fun b hb => W10_of_ne m c b fun e => hb (Finset.mem_image.mpr ⟨2, Finset.mem_univ _, e.symm⟩)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V7 m) c
  | ⟨2, _⟩ => fun c => dat2 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The decoder's arrays: one buffer behind two windows -/

/-- The decoder's three windows' arrays, spelt out: z at the left half share for the row window, z at the right half
    share for the column window, the result at the full share. -/
theorem arrays2_eq (V : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 V c).arrays G : sProp 𝕄) = iprop((((c.tc : Thread nD τ).loc main_v73) ↦{fullShare.left} G 0)
      ∗ (((c.tc : Thread nD τ).loc main_v73) ↦{fullShare.right} G 1) ∗ (((c.tc : Thread nD τ).loc main_v74) ↦{fullShare} G 2)) := by
  unfold Dat.arrays
  rw [bigSep_W2, (arr_whole2 0).set_eq_univ, (arr_whole2 2).set_eq_univ]
  rfl

/-- The two distinct buffers behind the decoder's windows. -/
theorem arrBufs2_eq (c : Dev nD) (V : (b : Ref sig .tc) → Buf (Elt F) ((c.tc : Thread nD τ).loc b)) :
    (Pipeline.arrBufs spec2 c V : sProp 𝕄) = iprop((((c.tc : Thread nD τ).loc main_v73) ↦{fullShare} V main_v73)
      ∗ (((c.tc : Thread nD τ).loc main_v74) ↦{fullShare} V main_v74)) := by
  unfold Pipeline.arrBufs
  rw [show Finset.univ.image (Pipeline.arrRef spec2) = insert main_v73 {main_v74} from by decide,
    bigSep_insert (by decide), bigSep_singleton]
  rfl

/-- At the decoder's entry: z's buffer, held whole, is cut into the two windows' halves. -/
theorem entry2 (c : Dev nD) :
    (unscopedBufs (Ix := Unit) (Name := ℕ) (U := UR sig nD τ) (Lvl := ℕ) c (V9 m c) : sProp 𝕄)
      ⊢ iprop((dat2 (V9 m) c).arrays ((dat2 (V9 m) c).arrAt · 0) ∗ Pipeline.unscopedRest spec2 c (V9 m c)) := by
  rw [Pipeline.unscopedBufs_split₀ (Pipeline.pin (pcfgs (F := F)) adm) 2 winFacts₀2.arr_unscoped c (V9 m c)]
  refine sep_mono ?_ .rfl
  show (Pipeline.arrBufs spec2 c (V9 m c) : sProp 𝕄) ⊢ _
  rw [arrBufs2_eq, arrays2_eq]
  iintro ⟨H73, H74⟩
  ihave H := (pointsTo_share (PosShare.mem_left_op_right fullShare)).1 $$ H73
  icases H with ⟨Hl, Hr⟩
  isplitl [Hl]; · iexact Hl
  isplitl [Hr]; · iexact Hr
  iexact H74

/-- At the decoder's exit: the two halves of z's buffer, both still at the entry contents, are joined, and the
    result array is held at what the write-backs left. -/
theorem exit2 (c : Dev nD) :
    iprop((dat2 (V9 m) c).arrays ((dat2 (V9 m) c).arrAt · cfg2.N) ∗ Pipeline.unscopedRest spec2 c (V9 m c))
      ⊢ (unscopedBufs (Ix := Unit) (Name := ℕ) (U := UR sig nD τ) (Lvl := ℕ) c (V10 m c) : sProp 𝕄) := by
  rw [Pipeline.unscopedBufs_split₀ (Pipeline.pin (pcfgs (F := F)) adm) 2 winFacts₀2.arr_unscoped c (V10 m c)]
  refine sep_mono ?_ (Entails.of_eq ?_)
  · show _ ⊢ (Pipeline.arrBufs spec2 c (V10 m c) : sProp 𝕄)
    have e0 : (dat2 (V9 m) c).arrAt 0 cfg2.N = V9 m c main_v73 :=
      ((dat2 (V9 m) c).arrAt_in 0 rfl _).trans (A_eq2 (V9 m) c 0)
    have e1 : (dat2 (V9 m) c).arrAt 1 cfg2.N = V9 m c main_v73 :=
      ((dat2 (V9 m) c).arrAt_in 1 rfl _).trans (A_eq2 (V9 m) c 1)
    rw [arrBufs2_eq, arrays2_eq, e0, e1,
      show V10 m c main_v73 = V9 m c main_v73 from W10_of_ne m c main_v73 (by decide),
      show V10 m c main_v74 = (dat2 (V9 m) c).arrAt 2 cfg2.N from W10_out m c]
    iintro ⟨Hl, Hr, H74⟩
    isplitl [Hl Hr]
    · iapply (pointsTo_share (PosShare.mem_left_op_right fullShare)).2
      isplitl [Hl] <;> iassumption
    iexact H74
  · unfold Pipeline.unscopedRest
    exact bigSep_congr fun b hb => by rw [hrest2 m c b (Finset.mem_sdiff.mp hb).2]

/-! ## The calls as segments -/

set_option backward.isDefEq.respectTransparency.types false in
/-- The layer-1 product over the thread state: entered from every unscoped buffer at its boundary's contents, left at
    the next boundary's. Its arrays are split out of the unscoped buffers and put back at the exit contents; the
    generator register goes into the invariant and comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer-2 product over the thread state: entered from every unscoped buffer at its boundary's contents, left at
    the next boundary's. Its arrays are split out of the unscoped buffers and put back at the exit contents; the
    generator register goes into the invariant and comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder over the thread state: entered from every unscoped buffer at `W9`, left at `W10` (what the launch
    reads at the end). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit : (unscopedBufs (Ix := Unit) (Name := ℕ) (U := UR sig nD τ) (Lvl := ℕ) c (V9 m c) : sProp 𝕄)
        ⊢ iprop((pdats m 2 c).arrays ((pdats m 2 c).arrAt · 0) ∗ Pipeline.unscopedRest spec2 c (V9 m c)) := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V9 m c))
        ⊢ (unscopedBufs (Ix := Unit) (Name := ℕ) (U := UR sig nD τ) (Lvl := ℕ) c (V10 m c) : sProp 𝕄) := exit2 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

set_option backward.isDefEq.respectTransparency.types false in
/-- THE RUN. From any memory with zero counters every weakly fair execution of the program on the TensorCores
    terminates, nothing faulting, and the final memory holds, at every unscoped buffer, the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.K.Frame.lean ====
/-
  The frame: the program runs to the end, faults nowhere, and every argument array ends holding its launch contents. No
  host stretch writes an argument and no call's result array is one, so the last boundary's contents at an argument's
  buffer walk back, stretch by stretch, to the launch memory.
-/
import proofs.«137605_j893353197865_1_alg».proof.Proof.Gen.Kernel.Launch
import proofs.«137605_j893353197865_1_alg».proof.Proof.Gen.Kernel.Skeleton
import proofs.«137605_j893353197865_1_alg».proof.Proof.Gen.Kernel.Points
import proofs.«137605_j893353197865_1_alg».proof.Proof.Gen.Kernel.Regions
import proofs.«137605_j893353197865_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer no host stretch writes and that is no call's result array ends as launched. -/
theorem W10_kept (c : Dev nD) (r : Ref sig .tc) (h0 : r ∉ hostOps0_W) (h1 : r ∉ hostOps0_1_W) (h2 : r ∉ hostOps0_2_W)
    (h3 : r ≠ main_v30) (h4 : r ∉ hostOps1_W) (h5 : r ∉ hostOps1_1_W) (h6 : r ∉ hostOps1_2_W) (h7 : r ≠ main_v49)
    (h8 : r ∉ hostOps2_W) (h9 : r ≠ main_v74) : W10 m c (Proc.devRef .tc r) = m ((c : Thread nD τ).loc r) :=
  (W10_of_ne m c r h9).trans <| (StableHlo.after_of_writes_sub hostOps2 _ hostOps2_writes h8).trans <|
  (W8_of_ne m c r h7).trans <| (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <| (W4_of_ne m c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W10_main_arg0 (c : Dev nD) : W10 m c (Proc.devRef .tc main_arg0) = m ((c : Thread nD τ).loc main_arg0) :=
  W10_kept m c main_arg0 (by decide) (by decide) (by decide) (by decide) (by decide) (by decide) (by decide) (by decide) (by decide) (by decide)
theorem W10_main_arg1 (c : Dev nD) : W10 m c (Proc.devRef .tc main_arg1) = m ((c : Thread nD τ).loc main_arg1) :=
  W10_kept m c main_arg1 (by decide) (by decide) (by decide) (by decide) (by decide) (by decide) (by decide) (by decide) (by decide) (by decide)
theorem W10_main_arg2 (c : Dev nD) : W10 m c (Proc.devRef .tc main_arg2) = m ((c : Thread nD τ).loc main_arg2) :=
  W10_kept m c main_arg2 (by decide) (by decide) (by decide) (by decide) (by decide) (by decide) (by decide) (by decide) (by decide) (by decide)
theorem W10_main_arg3 (c : Dev nD) : W10 m c (Proc.devRef .tc main_arg3) = m ((c : Thread nD τ).loc main_arg3) :=
  W10_kept m c main_arg3 (by decide) (by decide) (by decide) (by decide) (by decide) (by decide) (by decide) (by decide) (by decide) (by decide)
theorem W10_main_arg4 (c : Dev nD) : W10 m c (Proc.devRef .tc main_arg4) = m ((c : Thread nD τ).loc main_arg4) :=
  W10_kept m c main_arg4 (by decide) (by decide) (by decide) (by decide) (by decide) (by decide) (by decide) (by decide) (by decide) (by decide)
theorem W10_main_arg5 (c : Dev nD) : W10 m c (Proc.devRef .tc main_arg5) = m ((c : Thread nD τ).loc main_arg5) :=
  W10_kept m c main_arg5 (by decide) (by decide) (by decide) (by decide) (by decide) (by decide) (by decide) (by decide) (by decide) (by decide)
theorem W10_main_arg6 (c : Dev nD) : W10 m c (Proc.devRef .tc main_arg6) = m ((c : Thread nD τ).loc main_arg6) :=
  W10_kept m c main_arg6 (by decide) (by decide) (by decide) (by decide) (by decide) (by decide) (by decide) (by decide) (by decide) (by decide)
theorem W10_main_arg7 (c : Dev nD) : W10 m c (Proc.devRef .tc main_arg7) = m ((c : Thread nD τ).loc main_arg7) :=
  W10_kept m c main_arg7 (by decide) (by decide) (by decide) (by decide) (by decide) (by decide) (by decide) (by decide) (by decide) (by decide)
theorem W10_main_arg8 (c : Dev nD) : W10 m c (Proc.devRef .tc main_arg8) = m ((c : Thread nD τ).loc main_arg8) :=
  W10_kept m c main_arg8 (by decide) (by decide) (by decide) (by decide) (by decide) (by decide) (by decide) (by decide) (by decide) (by decide)

/-- THE FRAME, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

end Cert.Kernel.Hand

end
-- ==== Proof.KI.Body0.lean ====
/-
  Layer 1's dense product, one grid point at a time. The call tiles x : [8192, 512] by blocks of 2048 rows, keeps the
  weights [512, 256] resident, and at each point stores the product of the row block with the weights into the
  matching 2048-row block of the result. This module runs the body once, on any staging buffers (it loads both
  blocks whole and overwrites the output buffer whole with the payload), and packages that as the pipeline's
  per-point obligation.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not: where it
    is not fetched the block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S2048x512 := Rect.unit (s := S2048x512) ![0, 0] S2048x512.size inb_S2048x512_S2048x512_0_0
abbrev r0_b : Rect S512x256 := Rect.unit (s := S512x256) ![0, 0] S512x256.size inb_S512x256_S512x256_0_0
abbrev r0_o : Rect S2048x256 := Rect.unit (s := S2048x256) ![0, 0] S2048x256.size inb_S2048x256_S2048x256_0_0

/-- What the body leaves in the output window's staging buffer, from the two input blocks: its one whole-buffer
    store of the payload. -/
def out0_2 (x0 : Vec F S2048x512 .f32) (x1 : Vec F S512x256 .f32) : Vec F S2048x256 .f32 :=
  View.canon [⟨r0_o, k0_pay1 (View.ld x0 r0_a) (View.ld x1 r0_b)⟩]

/-- The one store covers the buffer. -/
theorem cover0_2 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords)
    (a1 : Memref sig .tc .vmem S2048x512 .f32) (ha1 : a1.IsWhole) (a2 : Memref sig .tc .vmem S512x256 .f32) (ha2 : a2.IsWhole)
    (a3 : Memref sig .tc .vmem S2048x256 .f32) (ha3 : a3.IsWhole)
    (x0 : Vec F S2048x512 .f32) (x1 : Vec F S512x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0_2 x0 x1)) -∗ K ⟨⟩))
      ⊢ wp frame (wpE (defs₀ (F := F)) Variants.none c none) E (cc0__matmul_kernel i a1 ha1 a2 ha2 a3 ha3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` each
    input window's buffer still at its block and the output window's at `out0_2` of the two input blocks; the
    invariant is the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Layer 2's dense product, one grid point at a time. The call tiles h : [8192, 256] by blocks of 2048 rows, keeps the
  concatenated weights [256, 256] resident, and at each point stores the product of the row block with the weights
  into the matching 2048-row block of the result. This module runs the body once, on any staging buffers, and
  packages that as the pipeline's per-point obligation.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not: where it
    is not fetched the block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S2048x256 := Rect.unit (s := S2048x256) ![0, 0] S2048x256.size inb_S2048x256_S2048x256_0_0
abbrev r1_b : Rect S256x256 := Rect.unit (s := S256x256) ![0, 0] S256x256.size inb_S256x256_S256x256_0_0
abbrev r1_o : Rect S2048x256 := Rect.unit (s := S2048x256) ![0, 0] S2048x256.size inb_S2048x256_S2048x256_0_0

/-- What the body leaves in the output window's staging buffer, from the two input blocks: its one whole-buffer
    store of the payload. -/
def out1_2 (x0 : Vec F S2048x256 .f32) (x1 : Vec F S256x256 .f32) : Vec F S2048x256 .f32 :=
  View.canon [⟨r1_o, k1_pay1 (View.ld x0 r1_a) (View.ld x1 r1_b)⟩]

/-- The one store covers the buffer. -/
theorem cover1_2 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords)
    (a1 : Memref sig .tc .vmem S2048x256 .f32) (ha1 : a1.IsWhole) (a2 : Memref sig .tc .vmem S256x256 .f32) (ha2 : a2.IsWhole)
    (a3 : Memref sig .tc .vmem S2048x256 .f32) (ha3 : a3.IsWhole)
    (x0 : Vec F S2048x256 .f32) (x1 : Vec F S256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1_2 x0 x1)) -∗ K ⟨⟩))
      ⊢ wp frame (wpE (defs₀ (F := F)) Variants.none c none) E (cc1__matmul_kernel i a1 ha1 a2 ha2 a3 ha3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` each
    input window's buffer still at its block and the output window's at `out1_2` of the two input blocks; the
    invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The decoder, one grid point at a time. The call reads z : [8192, 128] through two windows, a block of 2048 rows
  (index i) and a block of 1024 rows (index j), and at point (i, j) stores sigmoid(z_i z_j^T) into block (i, j) of the
  [8192, 8192] result. Both input windows sit on the same array, so each holds it at half the share. This module
  runs the body once, on any staging buffers, and packages that as the pipeline's per-point obligation.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not: where it
    is not fetched the block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S2048x128 := Rect.unit (s := S2048x128) ![0, 0] S2048x128.size inb_S2048x128_S2048x128_0_0
abbrev r2_b : Rect S1024x128 := Rect.unit (s := S1024x128) ![0, 0] S1024x128.size inb_S1024x128_S1024x128_0_0
abbrev r2_o : Rect S2048x1024 := Rect.unit (s := S2048x1024) ![0, 0] S2048x1024.size inb_S2048x1024_S2048x1024_0_0

/-- What the body leaves in the output window's staging buffer, from the two input blocks: its one whole-buffer
    store of the payload. -/
def out2_2 (x0 : Vec F S2048x128 .f32) (x1 : Vec F S1024x128 .f32) : Vec F S2048x1024 .f32 :=
  View.canon [⟨r2_o, k2_pay1 (View.ld x0 r2_a) (View.ld x1 r2_b)⟩]

/-- The one store covers the buffer. -/
theorem cover2_2 (p0 : Vec F S2048x1024 .f32) (y : S2048x1024.Idx) :
    ∃ pc ∈ ([⟨r2_o, p0⟩] : List (View.Piece (Elt F) S2048x1024 .f32)), y ∈ pc.1.set :=
  View.cover_of_tiled [⟨r2_o, p0⟩] S2048x1024.size (by rfl) y

set_option maxHeartbeats 1000000 in
/-- The body on whole staging memrefs, the inputs' at contents `x0`, `x1` and the output's at anything, runs to the
    continuation with the inputs' as they were and the output's at `out2_2 x0 x1`. -/
theorem sound_kernel2 (c : Dev nD) (E : Set ℕ) (i : grid2.Coords)
    (a1 : Memref sig .tc .vmem S2048x128 .f32) (ha1 : a1.IsWhole) (a2 : Memref sig .tc .vmem S1024x128 .f32) (ha2 : a2.IsWhole)
    (a3 : Memref sig .tc .vmem S2048x1024 .f32) (ha3 : a3.IsWhole)
    (x0 : Vec F S2048x128 .f32) (x1 : Vec F S1024x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out2_2 x0 x1)) -∗ K ⟨⟩))
      ⊢ wp frame (wpE (defs₀ (F := F)) Variants.none c none) E (cc2__decode_kernel i a1 ha1 a2 ha2 a3 ha3) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` each
    input window's buffer still at its block and the output window's at `out2_2` of the two input blocks; the
    invariant is the scoped rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program on a core: host lines, the layer-1 product, host lines (the graph aggregation, bias, relu, the
  weight concatenation), the layer-2 product, host lines (aggregation, the two column halves, the reparametrisation),
  the decoder. The buffers' contents at each boundary are a fold from the launch memory: a host stretch applies its
  operations; a call leaves every buffer as it found it except its result array, which ends at what the call's
  write-backs leave. The decoder reads z through two windows on one array: at its entry the array's ownership is cut
  into two halves, one per window, and at its exit the halves are put back together.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import proofs.«137605_j893353197865_1_alg».proof.Proof.Gen.KernelIdeal.Regions
import proofs.«137605_j893353197865_1_alg».proof.Proof.KI.Body0
import proofs.«137605_j893353197865_1_alg».proof.Proof.KI.Body1
import proofs.«137605_j893353197865_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- After the layer-1 product: its result array at what the write-backs leave, everything else as found. -/
def W4 (c : Dev nD) : Valuation τ sig (Elt F) :=
  Function.update (W3 m c) (Proc.devRef .tc main_v30) ((dat0 (V3 m) c).arrAt 2 cfg0.N)
abbrev V4 : (c : Dev nD) → (b : Ref sig .tc) → Buf (Elt F) ((c : Thread nD τ).loc b) := fun c b => W4 m c b
abbrev W5 : Dev nD → Valuation τ sig (Elt F) := fun c => StableHlo.after hostOps1 (W4 m c)
abbrev W6 : Dev nD → Valuation τ sig (Elt F) := fun c => StableHlo.after hostOps1_1 (W5 m c)
abbrev W7 : Dev nD → Valuation τ sig (Elt F) := fun c => StableHlo.after hostOps1_2 (W6 m c)
abbrev V7 : (c : Dev nD) → (b : Ref sig .tc) → Buf (Elt F) ((c : Thread nD τ).loc b) := fun c b => W7 m c b
/-- After the layer-2 product. -/
def W8 (c : Dev nD) : Valuation τ sig (Elt F) :=
  Function.update (W7 m c) (Proc.devRef .tc main_v49) ((dat1 (V7 m) c).arrAt 2 cfg1.N)
abbrev V8 : (c : Dev nD) → (b : Ref sig .tc) → Buf (Elt F) ((c : Thread nD τ).loc b) := fun c b => W8 m c b
abbrev W9 : Dev nD → Valuation τ sig (Elt F) := fun c => StableHlo.after hostOps2 (W8 m c)
abbrev V9 : (c : Dev nD) → (b : Ref sig .tc) → Buf (Elt F) ((c : Thread nD τ).loc b) := fun c b => W9 m c b
/-- After the decoder. -/
def W10 (c : Dev nD) : Valuation τ sig (Elt F) :=
  Function.update (W9 m c) (Proc.devRef .tc main_v74) ((dat2 (V9 m) c).arrAt 2 cfg2.N)
abbrev V10 : (c : Dev nD) → (b : Ref sig .tc) → Buf (Elt F) ((c : Thread nD τ).loc b) := fun c b => W10 m c b

theorem W4_out (c : Dev nD) : W4 m c (Proc.devRef .tc main_v30) = (dat0 (V3 m) c).arrAt 2 cfg0.N := by
  unfold W4; exact Function.update_self _ _ _
theorem W4_of_ne (c : Dev nD) (b : Ref sig .tc) (hb : b ≠ main_v30) : W4 m c (Proc.devRef .tc b) = W3 m c (Proc.devRef .tc b) := by
  unfold W4; exact Function.update_of_ne (StableHlo.devRef_ne_of_ne hb) _ _
theorem W8_out (c : Dev nD) : W8 m c (Proc.devRef .tc main_v49) = (dat1 (V7 m) c).arrAt 2 cfg1.N := by
  unfold W8; exact Function.update_self _ _ _
theorem W8_of_ne (c : Dev nD) (b : Ref sig .tc) (hb : b ≠ main_v49) : W8 m c (Proc.devRef .tc b) = W7 m c (Proc.devRef .tc b) := by
  unfold W8; exact Function.update_of_ne (StableHlo.devRef_ne_of_ne hb) _ _
theorem W10_out (c : Dev nD) : W10 m c (Proc.devRef .tc main_v74) = (dat2 (V9 m) c).arrAt 2 cfg2.N := by
  unfold W10; exact Function.update_self _ _ _
theorem W10_of_ne (c : Dev nD) (b : Ref sig .tc) (hb : b ≠ main_v74) : W10 m c (Proc.devRef .tc b) = W9 m c (Proc.devRef .tc b) := by
  unfold W10; exact Function.update_of_ne (StableHlo.devRef_ne_of_ne hb) _ _

/-- At the layer-1 product's exit each of its arrays holds what the pipeline leaves (an input array is never
    written), and every other buffer what it held at entry. -/
theorem hF0 (c : Dev nD) (w : Fin cfg0.W) : (dat0 (V3 m) c).arrAt w cfg0.N = V4 m c (Pipeline.arrRef spec0 w) :=
  match w with
  | ⟨0, _⟩ => ((dat0 (V3 m) c).arrAt_in 0 rfl _).trans ((A_eq0 (V3 m) c 0).trans (W4_of_ne m c main_arg0 (by decide)).symm)
  | ⟨1, _⟩ => ((dat0 (V3 m) c).arrAt_in 1 rfl _).trans ((A_eq0 (V3 m) c 1).trans (W4_of_ne m c main_arg3 (by decide)).symm)
  | ⟨2, _⟩ => (W4_out m c).symm
theorem hrest0 (c : Dev nD) : ∀ b, b ∉ Finset.univ.image (Pipeline.arrRef spec0) → V4 m c b = V3 m c b :=
  fun b hb => W4_of_ne m c b fun e => hb (Finset.mem_image.mpr ⟨2, Finset.mem_univ _, e.symm⟩)
theorem hF1 (c : Dev nD) (w : Fin cfg1.W) : (dat1 (V7 m) c).arrAt w cfg1.N = V8 m c (Pipeline.arrRef spec1 w) :=
  match w with
  | ⟨0, _⟩ => ((dat1 (V7 m) c).arrAt_in 0 rfl _).trans ((A_eq1 (V7 m) c 0).trans (W8_of_ne m c main_v47 (by decide)).symm)
  | ⟨1, _⟩ => ((dat1 (V7 m) c).arrAt_in 1 rfl _).trans ((A_eq1 (V7 m) c 1).trans (W8_of_ne m c main_v48 (by decide)).symm)
  | ⟨2, _⟩ => (W8_out m c).symm
theorem hrest1 (c : Dev nD) : ∀ b, b ∉ Finset.univ.image (Pipeline.arrRef spec1) → V8 m c b = V7 m c b :=
  fun b hb => W8_of_ne m c b fun e => hb (Finset.mem_image.mpr ⟨2, Finset.mem_univ _, e.symm⟩)
theorem hrest2 (c : Dev nD) : ∀ b, b ∉ Finset.univ.image (Pipeline.arrRef spec2) → V10 m c b = V9 m c b :=
  fun b hb => W10_of_ne m c b fun e => hb (Finset.mem_image.mpr ⟨2, Finset.mem_univ _, e.symm⟩)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V7 m) c
  | ⟨2, _⟩ => fun c => dat2 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The decoder's arrays: one buffer behind two windows -/

/-- The decoder's three windows' arrays, spelt out: z at the left half share for the row window, z at the right half
    share for the column window, the result at the full share. -/
theorem arrays2_eq (V : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 V c).arrays G : sProp 𝕄) = iprop((((c.tc : Thread nD τ).loc main_v73) ↦{fullShare.left} G 0)
      ∗ (((c.tc : Thread nD τ).loc main_v73) ↦{fullShare.right} G 1) ∗ (((c.tc : Thread nD τ).loc main_v74) ↦{fullShare} G 2)) := by
  unfold Dat.arrays
  rw [bigSep_W2, (arr_whole2 0).set_eq_univ, (arr_whole2 2).set_eq_univ]
  rfl

/-- The two distinct buffers behind the decoder's windows. -/
theorem arrBufs2_eq (c : Dev nD) (V : (b : Ref sig .tc) → Buf (Elt F) ((c.tc : Thread nD τ).loc b)) :
    (Pipeline.arrBufs spec2 c V : sProp 𝕄) = iprop((((c.tc : Thread nD τ).loc main_v73) ↦{fullShare} V main_v73)
      ∗ (((c.tc : Thread nD τ).loc main_v74) ↦{fullShare} V main_v74)) := by
  unfold Pipeline.arrBufs
  rw [show Finset.univ.image (Pipeline.arrRef spec2) = insert main_v73 {main_v74} from by decide,
    bigSep_insert (by decide), bigSep_singleton]
  rfl

/-- At the decoder's entry: z's buffer, held whole, is cut into the two windows' halves. -/
theorem entry2 (c : Dev nD) :
    (unscopedBufs (Ix := Unit) (Name := ℕ) (U := UR sig nD τ) (Lvl := ℕ) c (V9 m c) : sProp 𝕄)
      ⊢ iprop((dat2 (V9 m) c).arrays ((dat2 (V9 m) c).arrAt · 0) ∗ Pipeline.unscopedRest spec2 c (V9 m c)) := by
  rw [Pipeline.unscopedBufs_split₀ (Pipeline.pin (pcfgs (F := F)) adm) 2 winFacts₀2.arr_unscoped c (V9 m c)]
  refine sep_mono ?_ .rfl
  show (Pipeline.arrBufs spec2 c (V9 m c) : sProp 𝕄) ⊢ _
  rw [arrBufs2_eq, arrays2_eq]
  iintro ⟨H73, H74⟩
  ihave H := (pointsTo_share (PosShare.mem_left_op_right fullShare)).1 $$ H73
  icases H with ⟨Hl, Hr⟩
  isplitl [Hl]; · iexact Hl
  isplitl [Hr]; · iexact Hr
  iexact H74

/-- At the decoder's exit: the two halves of z's buffer, both still at the entry contents, are joined, and the
    result array is held at what the write-backs left. -/
theorem exit2 (c : Dev nD) :
    iprop((dat2 (V9 m) c).arrays ((dat2 (V9 m) c).arrAt · cfg2.N) ∗ Pipeline.unscopedRest spec2 c (V9 m c))
      ⊢ (unscopedBufs (Ix := Unit) (Name := ℕ) (U := UR sig nD τ) (Lvl := ℕ) c (V10 m c) : sProp 𝕄) := by
  rw [Pipeline.unscopedBufs_split₀ (Pipeline.pin (pcfgs (F := F)) adm) 2 winFacts₀2.arr_unscoped c (V10 m c)]
  refine sep_mono ?_ (Entails.of_eq ?_)
  · show _ ⊢ (Pipeline.arrBufs spec2 c (V10 m c) : sProp 𝕄)
    have e0 : (dat2 (V9 m) c).arrAt 0 cfg2.N = V9 m c main_v73 :=
      ((dat2 (V9 m) c).arrAt_in 0 rfl _).trans (A_eq2 (V9 m) c 0)
    have e1 : (dat2 (V9 m) c).arrAt 1 cfg2.N = V9 m c main_v73 :=
      ((dat2 (V9 m) c).arrAt_in 1 rfl _).trans (A_eq2 (V9 m) c 1)
    rw [arrBufs2_eq, arrays2_eq, e0, e1,
      show V10 m c main_v73 = V9 m c main_v73 from W10_of_ne m c main_v73 (by decide),
      show V10 m c main_v74 = (dat2 (V9 m) c).arrAt 2 cfg2.N from W10_out m c]
    iintro ⟨Hl, Hr, H74⟩
    isplitl [Hl Hr]
    · iapply (pointsTo_share (PosShare.mem_left_op_right fullShare)).2
      isplitl [Hl] <;> iassumption
    iexact H74
  · unfold Pipeline.unscopedRest
    exact bigSep_congr fun b hb => by rw [hrest2 m c b (Finset.mem_sdiff.mp hb).2]

/-! ## The calls as segments -/

set_option backward.isDefEq.respectTransparency.types false in
/-- The layer-1 product over the thread state: entered from every unscoped buffer at its boundary's contents, left at
    the next boundary's. Its arrays are split out of the unscoped buffers and put back at the exit contents; the
    generator register goes into the invariant and comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer-2 product over the thread state: entered from every unscoped buffer at its boundary's contents, left at
    the next boundary's. Its arrays are split out of the unscoped buffers and put back at the exit contents; the
    generator register goes into the invariant and comes out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder over the thread state: entered from every unscoped buffer at `W9`, left at `W10` (what the launch
    reads at the end). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit : (unscopedBufs (Ix := Unit) (Name := ℕ) (U := UR sig nD τ) (Lvl := ℕ) c (V9 m c) : sProp 𝕄)
        ⊢ iprop((pdats m 2 c).arrays ((pdats m 2 c).arrAt · 0) ∗ Pipeline.unscopedRest spec2 c (V9 m c)) := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V9 m c))
        ⊢ (unscopedBufs (Ix := Unit) (Name := ℕ) (U := UR sig nD τ) (Lvl := ℕ) c (V10 m c) : sProp 𝕄) := exit2 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)),
    .region (reg2 m) ]

set_option backward.isDefEq.respectTransparency.types false in
/-- THE RUN. From any memory with zero counters every weakly fair execution of the program on the TensorCores
    terminates, nothing faulting, and the final memory holds, at every unscoped buffer, the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KI.Frame.lean ====
/-
  The frame: the program runs to the end, faults nowhere, and every argument array ends holding its launch contents. No
  host stretch writes an argument and no call's result array is one, so the last boundary's contents at an argument's
  buffer walk back, stretch by stretch, to the launch memory.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import proofs.«137605_j893353197865_1_alg».proof.Proof.Gen.KernelIdeal.Regions
import proofs.«137605_j893353197865_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer no host stretch writes and that is no call's result array ends as launched. -/
theorem W10_kept (c : Dev nD) (r : Ref sig .tc) (h0 : r ∉ hostOps0_W) (h1 : r ∉ hostOps0_1_W) (h2 : r ∉ hostOps0_2_W)
    (h3 : r ≠ main_v30) (h4 : r ∉ hostOps1_W) (h5 : r ∉ hostOps1_1_W) (h6 : r ∉ hostOps1_2_W) (h7 : r ≠ main_v49)
    (h8 : r ∉ hostOps2_W) (h9 : r ≠ main_v74) : W10 m c (Proc.devRef .tc r) = m ((c : Thread nD τ).loc r) :=
  (W10_of_ne m c r h9).trans <| (StableHlo.after_of_writes_sub hostOps2 _ hostOps2_writes h8).trans <|
  (W8_of_ne m c r h7).trans <| (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <| (W4_of_ne m c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W10_main_arg0 (c : Dev nD) : W10 m c (Proc.devRef .tc main_arg0) = m ((c : Thread nD τ).loc main_arg0) :=
  W10_kept m c main_arg0 (by decide) (by decide) (by decide) (by decide) (by decide) (by decide) (by decide) (by decide) (by decide) (by decide)
theorem W10_main_arg1 (c : Dev nD) : W10 m c (Proc.devRef .tc main_arg1) = m ((c : Thread nD τ).loc main_arg1) :=
  W10_kept m c main_arg1 (by decide) (by decide) (by decide) (by decide) (by decide) (by decide) (by decide) (by decide) (by decide) (by decide)
theorem W10_main_arg2 (c : Dev nD) : W10 m c (Proc.devRef .tc main_arg2) = m ((c : Thread nD τ).loc main_arg2) :=
  W10_kept m c main_arg2 (by decide) (by decide) (by decide) (by decide) (by decide) (by decide) (by decide) (by decide) (by decide) (by decide)
theorem W10_main_arg3 (c : Dev nD) : W10 m c (Proc.devRef .tc main_arg3) = m ((c : Thread nD τ).loc main_arg3) :=
  W10_kept m c main_arg3 (by decide) (by decide) (by decide) (by decide) (by decide) (by decide) (by decide) (by decide) (by decide) (by decide)
theorem W10_main_arg4 (c : Dev nD) : W10 m c (Proc.devRef .tc main_arg4) = m ((c : Thread nD τ).loc main_arg4) :=
  W10_kept m c main_arg4 (by decide) (by decide) (by decide) (by decide) (by decide) (by decide) (by decide) (by decide) (by decide) (by decide)
theorem W10_main_arg5 (c : Dev nD) : W10 m c (Proc.devRef .tc main_arg5) = m ((c : Thread nD τ).loc main_arg5) :=
  W10_kept m c main_arg5 (by decide) (by decide) (by decide) (by decide) (by decide) (by decide) (by decide) (by decide) (by decide) (by decide)
theorem W10_main_arg6 (c : Dev nD) : W10 m c (Proc.devRef .tc main_arg6) = m ((c : Thread nD τ).loc main_arg6) :=
  W10_kept m c main_arg6 (by decide) (by decide) (by decide) (by decide) (by decide) (by decide) (by decide) (by decide) (by decide) (by decide)
theorem W10_main_arg7 (c : Dev nD) : W10 m c (Proc.devRef .tc main_arg7) = m ((c : Thread nD τ).loc main_arg7) :=
  W10_kept m c main_arg7 (by decide) (by decide) (by decide) (by decide) (by decide) (by decide) (by decide) (by decide) (by decide) (by decide)
theorem W10_main_arg8 (c : Dev nD) : W10 m c (Proc.devRef .tc main_arg8) = m ((c : Thread nD τ).loc main_arg8) :=
  W10_kept m c main_arg8 (by decide) (by decide) (by decide) (by decide) (by decide) (by decide) (by decide) (by decide) (by decide) (by decide)

/-- THE FRAME, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c)⟩)
    (run_all m ρ)

end Cert.KernelIdeal.Hand

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KI.Tiles0.lean ====
/-
  The layer-1 product as one array. Each grid point stores the product of a 2048-row block of x with the resident
  weights into the matching row block of the result; the contraction runs over all 512 columns inside one point, so
  entry (r, q) of the result is the plain sum over k of x[r, k] * W1[k, q], and the four row blocks tile the rows.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import proofs.«137605_j893353197865_1_alg».proof.Proof.KI.Body0
import proofs.«137605_j893353197865_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gcn.Dense (prod)

theorem hz0 : (![0, 0] : Fin 2 → Nat) = fun _ => 0 := funext fun a => by fin_cases a <;> rfl

/-- The body's payload, read at an index: the matrix product of the two loaded blocks (a change of float format is
    the identity on the extended reals, and the accumulator is zero). -/
theorem pay0_apply (x0 : Vec Ideal S2048x512 .f32) (x1 : Vec Ideal S512x256 .f32) (j : S2048x256.Idx) :
    k0_pay1 (F := Ideal) x0 x1 j = prod x0 x1 j := by
  unfold k0_pay1
  refine (Ideal.matmul_constant_zero_apply dot_S2048x512_S512x256_S2048x256_1_0_0_1_n_n none _ _ j).trans ?_
  refine (Cert.Gcn.Dense.sum_contr_eq_prod (M := 2048) (K := 512) (N := 256) dot_S2048x512_S512x256_S2048x256_1_0_0_1_n_n rfl rfl
    (fun _ _ => rfl) (fun _ _ => rfl) (fun _ _ => rfl) (fun _ _ => rfl) _ _ j).trans ?_
  rfl

/-- If row `j 0` of the left block is row `i 0` of the left array and column `j 1` of the right block is column
    `i 1` of the right array, the payload at `j` is the whole product at `i`. -/
theorem pay0_of_rows (A : S8192x512.Idx → EReal) (B : S512x256.Idx → EReal) (x0 : Vec Ideal S2048x512 .f32) (x1 : Vec Ideal S512x256 .f32)
    (j : S2048x256.Idx) (i : S8192x256.Idx)
    (h0 : ∀ k : Fin 512, x0 (ix2 (j 0) k) = A (ix2 (i 0) k)) (h1 : ∀ k : Fin 512, x1 (ix2 k (j 1)) = B (ix2 k (i 1))) :
    k0_pay1 (F := Ideal) x0 x1 j = prod A B i := by
  rw [pay0_apply]
  unfold prod
  exact Finset.sum_congr rfl fun k _ => by rw [h0 k, h1 k]

/-- The printed index maps over the grid: the row window and the result window move together along the rows, every
    other block index is zero. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every row block of the result is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

variable (V : (c : Dev nD) → (b : Ref sig .tc) → Buf (Elt Ideal) ((c : Thread nD τ).loc b))

/-- What point `t` writes back is block `t` of the whole product of the two arrays the call was handed. -/
theorem flushed0_eq (c : Dev nD) (t : Fin cfg0.N) :
    (dat0 V c).flushed 2 t = ((cfg0.win 2).blk t).view.read (Elt Ideal)
      (prod (V c main_arg0 : S8192x512.Idx → EReal) (V c main_arg3 : S512x256.Idx → EReal)) := by
  show (cfg0.win 2).cut (grid0.coords t) ((dat0 V c).after 2 t) = _
  rw [after0_2]
  unfold out0_2
  rw [View.canon_unit_zero hz0]
  simp only [View.ld_unit_zero (S := S2048x512) hz0, View.ld_unit_zero (S := S512x256) hz0]
  obtain ⟨e0, e1, e2, e3, e4, e5⟩ := idx_facts0 t
  funext j
  show k0_pay1 (F := Ideal) (iblk0 V c 0 t) (iblk0 V c 1 t) j
    = prod (V c main_arg0 : S8192x512.Idx → EReal) (V c main_arg3 : S512x256.Idx → EReal) (((cfg0.win 2).blk t).view.emb j)
  refine pay0_of_rows _ _ _ _ j _ (fun k => ?_) (fun k => ?_)
  · show (V c main_arg0 : S8192x512.Idx → EReal) (((cfg0.win 0).blk t).view.emb (ix2 (j 0) k)) = _
    refine congrArg (V c main_arg0 : S8192x512.Idx → EReal) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 512 + 1 * k.val = k.val
      omega
  · show (V c main_arg3 : S512x256.Idx → EReal) (((cfg0.win 1).blk t).view.emb (ix2 k (j 1))) = _
    refine congrArg (V c main_arg3 : S512x256.Idx → EReal) (funext fun a => Fin.ext ?_)
    match a with
    | ⟨0, _⟩ =>
      show win0_1.index t (0 : Fin 2) * 512 + 1 * k.val = k.val
      omega
    | ⟨1, _⟩ =>
      show win0_1.index t (1 : Fin 2) * 256 + 1 * (j 1).val = win0_2.index t (1 : Fin 2) * 256 + 1 * (j 1).val
      omega

/-- An index of the result array is in point `t`'s block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v30).slice (win0_2.rect t)).set ↔ _
  rw [View.set_slice_whole, Rect.mem_set_unit]
  exact Iff.rfl

/-- The row blocks tile the result: row `r` is in the block of the point whose block index is `r / 2048`. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- THE RESULT ARRAY after the call: the whole product of the two arrays the call was handed. -/
theorem val0 (c : Dev nD) :
    (dat0 V c).arrAt 2 cfg0.N = prod (V c main_arg0 : S8192x512.Idx → EReal) (V c main_arg3 : S512x256.Idx → EReal) :=
  (dat0 V c).arrAt_eq_of_cover 2 _ (fun t _ => flushed0_eq V c t) cover0

end Cert.KernelIdeal.Hand

end
-- ==== Proof.KI.Tiles1.lean ====
/-
  The layer-2 product as one array. Each grid point stores the product of a 2048-row block of h with the resident
  concatenated weights into the matching row block of the result; the contraction runs over all 256 columns inside
  one point, so entry (r, q) is the plain sum over k of h[r, k] * Wcat[k, q], and the four row blocks tile the rows.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import proofs.«137605_j893353197865_1_alg».proof.Proof.KI.Body1
import proofs.«137605_j893353197865_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gcn.Dense (prod)

theorem hz1 : (![0, 0] : Fin 2 → Nat) = fun _ => 0 := funext fun a => by fin_cases a <;> rfl

/-- The body's payload, read at an index: the matrix product of the two loaded blocks (a change of float format is
    the identity on the extended reals, and the accumulator is zero). -/
theorem pay1_apply (x0 : Vec Ideal S2048x256 .f32) (x1 : Vec Ideal S256x256 .f32) (j : S2048x256.Idx) :
    k1_pay1 (F := Ideal) x0 x1 j = prod x0 x1 j := by
  unfold k1_pay1
  rw [shapeCast_self, shapeCast_self]
  refine (Ideal.matmul_constant_zero_apply dot_S2048x256_S256x256_S2048x256_1_0_0_1_n_n none _ _ j).trans ?_
  refine (Cert.Gcn.Dense.sum_contr_eq_prod (M := 2048) (K := 256) (N := 256) dot_S2048x256_S256x256_S2048x256_1_0_0_1_n_n rfl rfl
    (fun _ _ => rfl) (fun _ _ => rfl) (fun _ _ => rfl) (fun _ _ => rfl) _ _ j).trans ?_
  rfl

/-- If row `j 0` of the left block is row `i 0` of the left array and column `j 1` of the right block is column
    `i 1` of the right array, the payload at `j` is the whole product at `i`. -/
theorem pay1_of_rows (A : S8192x256.Idx → EReal) (B : S256x256.Idx → EReal) (x0 : Vec Ideal S2048x256 .f32) (x1 : Vec Ideal S256x256 .f32)
    (j : S2048x256.Idx) (i : S8192x256.Idx)
    (h0 : ∀ k : Fin 256, x0 (ix2 (j 0) k) = A (ix2 (i 0) k)) (h1 : ∀ k : Fin 256, x1 (ix2 k (j 1)) = B (ix2 k (i 1))) :
    k1_pay1 (F := Ideal) x0 x1 j = prod A B i := by
  rw [pay1_apply]
  unfold prod
  exact Finset.sum_congr rfl fun k _ => by rw [h0 k, h1 k]

/-- The printed index maps over the grid: the row window and the result window move together along the rows, every
    other block index is zero. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 3 :=
  (by decide +kernel : ∀ t : Fin grid1.N, _)

/-- Every row block of the result is some point's. -/
theorem idx_onto1 : ∀ q0 : Fin 4, ∃ t : Fin cfg1.N, win1_2.index t = ![q0.val, 0] :=
  (by decide +kernel : ∀ q0 : Fin 4, ∃ t : Fin grid1.N, win1_2.index t = ![q0.val, 0])

variable (V : (c : Dev nD) → (b : Ref sig .tc) → Buf (Elt Ideal) ((c : Thread nD τ).loc b))

/-- What point `t` writes back is block `t` of the whole product of the two arrays the call was handed. -/
theorem flushed1_eq (c : Dev nD) (t : Fin cfg1.N) :
    (dat1 V c).flushed 2 t = ((cfg1.win 2).blk t).view.read (Elt Ideal)
      (prod (V c main_v47 : S8192x256.Idx → EReal) (V c main_v48 : S256x256.Idx → EReal)) := by
  show (cfg1.win 2).cut (grid1.coords t) ((dat1 V c).after 2 t) = _
  rw [after1_2]
  unfold out1_2
  rw [View.canon_unit_zero hz1]
  simp only [View.ld_unit_zero (S := S2048x256) hz1, View.ld_unit_zero (S := S256x256) hz1]
  obtain ⟨e0, e1, e2, e3, e4, e5⟩ := idx_facts1 t
  funext j
  show k1_pay1 (F := Ideal) (iblk1 V c 0 t) (iblk1 V c 1 t) j
    = prod (V c main_v47 : S8192x256.Idx → EReal) (V c main_v48 : S256x256.Idx → EReal) (((cfg1.win 2).blk t).view.emb j)
  refine pay1_of_rows _ _ _ _ j _ (fun k => ?_) (fun k => ?_)
  · show (V c main_v47 : S8192x256.Idx → EReal) (((cfg1.win 0).blk t).view.emb (ix2 (j 0) k)) = _
    refine congrArg (V c main_v47 : S8192x256.Idx → EReal) (funext fun a => Fin.ext ?_)
    match a with
    | ⟨0, _⟩ =>
      show win1_0.index t (0 : Fin 2) * 2048 + 1 * (j 0).val = win1_2.index t (0 : Fin 2) * 2048 + 1 * (j 0).val
      omega
    | ⟨1, _⟩ =>
      show win1_0.index t (1 : Fin 2) * 256 + 1 * k.val = k.val
      omega
  · show (V c main_v48 : S256x256.Idx → EReal) (((cfg1.win 1).blk t).view.emb (ix2 k (j 1))) = _
    refine congrArg (V c main_v48 : S256x256.Idx → EReal) (funext fun a => Fin.ext ?_)
    match a with
    | ⟨0, _⟩ =>
      show win1_1.index t (0 : Fin 2) * 256 + 1 * k.val = k.val
      omega
    | ⟨1, _⟩ =>
      show win1_1.index t (1 : Fin 2) * 256 + 1 * (j 1).val = win1_2.index t (1 : Fin 2) * 256 + 1 * (j 1).val
      omega

/-- An index of the result array is in point `t`'s block iff each coordinate is in the block's range on its axis. -/
theorem mem_blk1 (t : Fin cfg1.N) (i : S8192x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v49).slice (win1_2.rect t)).set ↔ _
  rw [View.set_slice_whole, Rect.mem_set_unit]
  exact Iff.rfl

/-- The row blocks tile the result: row `r` is in the block of the point whose block index is `r / 2048`. -/
theorem cover1 (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  obtain ⟨t, ht⟩ := idx_onto1 ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

/-- THE RESULT ARRAY after the call: the whole product of the two arrays the call was handed. -/
theorem val1 (c : Dev nD) :
    (dat1 V c).arrAt 2 cfg1.N = prod (V c main_v47 : S8192x256.Idx → EReal) (V c main_v48 : S256x256.Idx → EReal) :=
  (dat1 V c).arrAt_eq_of_cover 2 _ (fun t _ => flushed1_eq V c t) cover1

end Cert.KernelIdeal.Hand

end
-- ==== Proof.KI.Tiles2.lean ====
/-
  The decoder as one array. At grid point (i, j) the body stores sigmoid(z_i z_j^T), z_i a 2048-row block and z_j a
  1024-row block of the same array z : [8192, 128]; the contraction runs over all 128 columns inside one point, so
  entry (r, q) of the result is sigmoid of the sum over k of z[r, k] * z[q, k], and the 4 x 8 blocks tile the
  [8192, 8192] result.
-/
import proofs.«137605_j893353197865_1_alg».proof.Proof.Gen.KernelIdeal.Launch
import proofs.«137605_j893353197865_1_alg».proof.Proof.Gen.KernelIdeal.Skeleton
import proofs.«137605_j893353197865_1_alg».proof.Proof.Gen.KernelIdeal.Points
import proofs.«137605_j893353197865_1_alg».proof.Proof.KI.Body2
import proofs.«137605_j893353197865_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gcn.Dense (prod)

theorem hz2 : (![0, 0] : Fin 2 → Nat) = fun _ => 0 := funext fun a => by fin_cases a <;> rfl

/-- The decoder's value on an array z : [8192, 128]: entry (r, q) is the logistic function of the inner product of
    rows r and q. -/
def Dec (z : S8192x128.Idx → EReal) : S8192x8192.Idx → EReal :=
  fun i => Ideal.logistic (∑ k : Fin 128, z (ix2 (i 0) k) * z (ix2 (i 1) k))

/-- The body's payload, read at an index: the logistic function of the inner product of a row of the first block
    and a row of the second (the second block enters transposed; casts and format changes are the identity). -/
theorem pay2_apply (x0 : Vec Ideal S2048x128 .f32) (x1 : Vec Ideal S1024x128 .f32) (j : S2048x1024.Idx) :
    k2_pay1 (F := Ideal) x0 x1 j = Ideal.logistic (∑ k : Fin 128, x0 (ix2 (j 0) k) * x1 (ix2 (j 1) k)) := by
  unfold k2_pay1
  rw [shapeCast_self, shapeCast_self]
  show Ideal.logistic (FloatOps.matmul (F := Ideal) dot_S2048x128_S128x1024_S2048x1024_1_0_0_1_n_n none _ _ (constant S2048x1024 .f32 0x00000000#32) j) = _
  refine congrArg Ideal.logistic ?_
  refine (Ideal.matmul_constant_zero_apply dot_S2048x128_S128x1024_S2048x1024_1_0_0_1_n_n none _ _ j).trans ?_
  refine (Cert.Gcn.Dense.sum_contr_eq_prod (M := 2048) (K := 128) (N := 1024) dot_S2048x128_S128x1024_S2048x1024_1_0_0_1_n_n rfl rfl
    (fun _ _ => rfl) (fun _ _ => rfl) (fun _ _ => rfl) (fun _ _ => rfl) _ _ j).trans ?_
  unfold prod
  refine Finset.sum_congr rfl fun k _ => ?_
  refine congrArg (x0 (ix2 (j 0) k) * ·) ?_
  refine (transpose_apply [1, 0] _ _ (ix2 k (j 1)) (ix2 (j 1) k) (fun b => ?_)).trans rfl
  match b with
  | ⟨0, _⟩ => rfl
  | ⟨1, _⟩ => rfl

/-- If row `j 0` of the first block is row `i 0` of z and row `j 1` of the second block is row `i 1` of z, the
    payload at `j` is the decoder's value at `i`. -/
theorem pay2_of_rows (Z : S8192x128.Idx → EReal) (x0 : Vec Ideal S2048x128 .f32) (x1 : Vec Ideal S1024x128 .f32)
    (j : S2048x1024.Idx) (i : S8192x8192.Idx)
    (h0 : ∀ k : Fin 128, x0 (ix2 (j 0) k) = Z (ix2 (i 0) k)) (h1 : ∀ k : Fin 128, x1 (ix2 (j 1) k) = Z (ix2 (i 1) k)) :
    k2_pay1 (F := Ideal) x0 x1 j = Dec Z i := by
  rw [pay2_apply]
  unfold Dec
  exact congrArg Ideal.logistic (Finset.sum_congr rfl fun k _ => by rw [h0 k, h1 k])

/-- The printed index maps over the grid: the first window follows the result's row blocks, the second its column
    blocks; both windows' column block index is zero. -/
theorem idx_facts2 : ∀ t : Fin cfg2.N, win2_0.index t (0 : Fin 2) = win2_2.index t (0 : Fin 2)
    ∧ win2_0.index t (1 : Fin 2) = 0 ∧ win2_1.index t (0 : Fin 2) = win2_2.index t (1 : Fin 2) ∧ win2_1.index t (1 : Fin 2) = 0
    ∧ win2_2.index t (0 : Fin 2) ≤ 3 ∧ win2_2.index t (1 : Fin 2) ≤ 7 :=
  (by decide +kernel : ∀ t : Fin grid2.N, _)

/-- Every block of the result is some point's. -/
theorem idx_onto2 : ∀ (q0 : Fin 4) (q1 : Fin 8), ∃ t : Fin cfg2.N, win2_2.index t = ![q0.val, q1.val] :=
  (by decide +kernel : ∀ (q0 : Fin 4) (q1 : Fin 8), ∃ t : Fin grid2.N, win2_2.index t = ![q0.val, q1.val])

variable (V : (c : Dev nD) → (b : Ref sig .tc) → Buf (Elt Ideal) ((c : Thread nD τ).loc b))

/-- What point `t` writes back is block `t` of the decoder's value on the array both windows read. -/
theorem flushed2_eq (c : Dev nD) (t : Fin cfg2.N) :
    (dat2 V c).flushed 2 t = ((cfg2.win 2).blk t).view.read (Elt Ideal) (Dec (V c main_v73 : S8192x128.Idx → EReal)) := by
  show (cfg2.win 2).cut (grid2.coords t) ((dat2 V c).after 2 t) = _
  rw [after2_2]
  unfold out2_2
  rw [View.canon_unit_zero hz2]
  simp only [View.ld_unit_zero (S := S2048x128) hz2, View.ld_unit_zero (S := S1024x128) hz2]
  obtain ⟨e0, e1, e2, e3, e4, e5⟩ := idx_facts2 t
  funext j
  show k2_pay1 (F := Ideal) (iblk2 V c 0 t) (iblk2 V c 1 t) j
    = Dec (V c main_v73 : S8192x128.Idx → EReal) (((cfg2.win 2).blk t).view.emb j)
  refine pay2_of_rows _ _ _ j _ (fun k => ?_) (fun k => ?_)
  · show (V c main_v73 : S8192x128.Idx → EReal) (((cfg2.win 0).blk t).view.emb (ix2 (j 0) k)) = _
    refine congrArg (V c main_v73 : S8192x128.Idx → EReal) (funext fun a => Fin.ext ?_)
    match a with
    | ⟨0, _⟩ =>
      show win2_0.index t (0 : Fin 2) * 2048 + 1 * (j 0).val = win2_2.index t (0 : Fin 2) * 2048 + 1 * (j 0).val
      omega
    | ⟨1, _⟩ =>
      show win2_0.index t (1 : Fin 2) * 128 + 1 * k.val = k.val
      omega
  · show (V c main_v73 : S8192x128.Idx → EReal) (((cfg2.win 1).blk t).view.emb (ix2 (j 1) k)) = _
    refine congrArg (V c main_v73 : S8192x128.Idx → EReal) (funext fun a => Fin.ext ?_)
    match a with
    | ⟨0, _⟩ =>
      show win2_1.index t (0 : Fin 2) * 1024 + 1 * (j 1).val = win2_2.index t (1 : Fin 2) * 1024 + 1 * (j 1).val
      omega
    | ⟨1, _⟩ =>
      show win2_1.index t (1 : Fin 2) * 128 + 1 * k.val = k.val
      omega

/-- An index of the result array is in point `t`'s block iff each coordinate is in the block's range on its axis. -/
theorem mem_blk2 (t : Fin cfg2.N) (i : S8192x8192.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v74).slice (win2_2.rect t)).set ↔ _
  rw [View.set_slice_whole, Rect.mem_set_unit]
  exact Iff.rfl

/-- The blocks tile the result: entry (r, q) is in the block of the point with block index (r / 2048, q / 1024). -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 2048, by omega⟩ ⟨(i 1).val / 1024, by omega⟩
  have q0 : win2_2.index t (0 : Fin 2) = (i 0).val / 2048 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- THE RESULT ARRAY after the call: the decoder's value on the array the call was handed. -/
theorem val2 (c : Dev nD) : (dat2 V c).arrAt 2 cfg2.N = Dec (V c main_v73 : S8192x128.Idx → EReal) :=
  (dat2 V c).arrAt_eq_of_cover 2 _ (fun t _ => flushed2_eq V c t) cover2

end Cert.KernelIdeal.Hand

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«137605_j893353197865_1_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.Algebra.lean ====
/-
  The algebra that joins the two programs' second graph layer, over the extended reals.

  Both programs gather rows of a node array along the edges' sources, scale each gathered row by a per-edge factor,
  add the scaled rows into the rows their edges point to, starting from zero, and read the result. One program
  does this once, for the product of the node features with the two weight matrices laid side by side, and then
  cuts the result into its left and right halves; the other does it twice, once for each weight matrix. The
  aggregation acts on each column by itself, and column `k` of `h · [A | B]` is column `k` of `h · A` when
  `k < 128` and column `k - 128` of `h · B` otherwise, so entry by entry the two are the same finite sum: no
  finiteness of any operand is used. Besides this the file reads a host contraction over one axis as the matrix
  product, and the decoder `1 / (1 + e^(-(z zᵀ)))` as the logistic function of the inner products of rows.
-/
import proofs.«137605_j893353197865_1_alg».proof.Proof.Gen.KernelIdeal
import proofs.«137605_j893353197865_1_alg».proof.Proof.Gen.ReferenceIdeal
import proofs.«137605_j893353197865_1_alg».proof.Proof.LibGraphMean
import proofs.«137605_j893353197865_1_alg».proof.Proof.LibMatProd
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Bridge

open Idealize.ShloMosaic Idealize.ShloMosaic.ValueIdx Cert.ScatterGather Cert.GraphMean Cert.Gcn.Dense

/-! ## A host contraction over one axis is the matrix product -/

/-- The first layer's host contraction, `[8192, 512]` by `[512, 256]`: entry `(r, q)` is `Σ_k x (r, k) · w (k, q)`. -/
theorem ref_dot0 (x : FVec Ideal Cert.ReferenceIdeal.S8192x512 .f32) (w : FVec Ideal Cert.ReferenceIdeal.S512x256 .f32) :
    Host.dotGeneral Cert.ReferenceIdeal.dot_S8192x512_S512x256_S8192x256_1_0_0_1_n_n none x w = prod x w := by
  funext i
  refine (Ideal.dotGeneral_apply _ none .single x w i).trans ?_
  exact sum_contr_eq_prod Cert.ReferenceIdeal.dot_S8192x512_S512x256_S8192x256_1_0_0_1_n_n rfl rfl
    (fun _ _ => rfl) (fun _ _ => rfl) (fun _ _ => rfl) (fun _ _ => rfl) x w i

/-- The second layer's host contraction, `[8192, 256]` by `[256, 128]`: entry `(r, q)` is `Σ_k h (r, k) · w (k, q)`. -/
theorem ref_dot1 (h : FVec Ideal Cert.ReferenceIdeal.S8192x256 .f32) (w : FVec Ideal Cert.ReferenceIdeal.S256x128 .f32) :
    Host.dotGeneral Cert.ReferenceIdeal.dot_S8192x256_S256x128_S8192x128_1_0_0_1_n_n none h w = prod h w := by
  funext i
  refine (Ideal.dotGeneral_apply _ none .single h w i).trans ?_
  exact sum_contr_eq_prod Cert.ReferenceIdeal.dot_S8192x256_S256x128_S8192x128_1_0_0_1_n_n rfl rfl
    (fun _ _ => rfl) (fun _ _ => rfl) (fun _ _ => rfl) (fun _ _ => rfl) h w i

/-! ## The aggregation read at an index -/

/-- Gather rows of `X` along the source indices, scale entry `(e, k)` by `B (e, k)`, and add the scaled rows into
    zeros along the target indices: entry `(r, k)` of the result is `Σ_{e lands on r} X (src e, k) · B (e, k)`. -/
theorem agg_apply {N M C w : Nat} (hN : 0 < N)
    (ds : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hds : ds = rowsScatter N M C wfs)
    (dg : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hdg : dg = rowsDims N M C wfg)
    (Z : FVec Ideal ⟨2, ![N, C]⟩ .f32) (hZ : ∀ i, Z i = 0) (idxd idxs : IVec ⟨2, ![M, 1]⟩ w)
    (X : FVec Ideal ⟨2, ![N, C]⟩ .f32) (B : FVec Ideal ⟨2, ![M, C]⟩ .f32) (r : Fin N) (k : Fin C) :
    Host.scatterAdd (F := Ideal) (φ := .f32) ds Z idxd (mulf (F := Ideal) (φ := .f32) (Host.gather dg X idxs) B) (ix2 r k)
      = ∑ e ∈ landing idxd r, X (ix2 (clampRow N hN idxs e) k) * B (ix2 e k) := by
  obtain rfl : Z = fun _ => 0 := funext hZ
  subst hds hdg
  refine (scatter_rows_apply wfs idxd _ r k).trans ?_
  refine Finset.sum_congr rfl fun e _ => ?_
  exact congrArg (· * B (ix2 e k)) (gather_rows_apply hN wfg X idxs (ix2 e k))

/-- A per-edge factor carried as a column and then repeated along the columns, read at `(e, k)`: the factor of `e`. -/
theorem bcast_col_apply {α : Type} {M C : Nat} (hM : M ≠ 1)
    (h0 : (⟨1, ![M]⟩ : Shape).BroadcastsInDim ⟨2, ![M, 1]⟩ ![0])
    (h1 : (⟨2, ![M, 1]⟩ : Shape).BroadcastsInDim ⟨2, ![M, C]⟩ ![0, 1])
    (f : (⟨1, ![M]⟩ : Shape).Idx → α) (e : Fin M) (k : Fin C) :
    broadcastInDim ⟨2, ![M, C]⟩ ![0, 1] h1 (broadcastInDim ⟨2, ![M, 1]⟩ ![0] h0 f) (ix2 e k) = f (ix1 e) := by
  refine (broadcastInDim_apply _ h1 _ (ix2 e k) (ix2 e (0 : Fin 1)) fun a => ?_).trans ?_
  · match a with
    | ⟨0, _⟩ =>
      show e.val = if M = 1 then 0 else e.val
      rw [if_neg hM]
    | ⟨1, _⟩ => rfl
  · refine broadcastInDim_apply _ h0 f (ix2 e (0 : Fin 1)) (ix1 e) fun a => ?_
    match a with
    | ⟨0, _⟩ =>
      show e.val = if M = 1 then 0 else e.val
      rw [if_neg hM]

/-! ## The columns of a product with two weight matrices laid side by side -/

/-- Column `k` of the left half, as a column of the whole. -/
abbrev colLo (k : Fin 128) : Fin 256 := ⟨k.val, by omega⟩

/-- Column `k` of the right half, as a column of the whole. -/
abbrev colHi (k : Fin 128) : Fin 256 := ⟨k.val + 128, by omega⟩

/-- Column `k < 128` of `h · [A | B]` is column `k` of `h · A`. -/
theorem prod_concat_lo (hc : Shape.Concatenates [Cert.KernelIdeal.S256x128, Cert.KernelIdeal.S256x128] Cert.KernelIdeal.S256x256 1)
    (h : FVec Ideal Cert.KernelIdeal.S8192x256 .f32) (a b : FVec Ideal Cert.KernelIdeal.S256x128 .f32)
    (r : Fin 8192) (k : Fin 128) :
    prod h (concatenate Cert.KernelIdeal.S256x256 1 [⟨Cert.KernelIdeal.S256x128, a⟩, ⟨Cert.KernelIdeal.S256x128, b⟩] hc)
      (ix2 r (colLo k)) = prod h a (ix2 r k) := by
  unfold prod
  refine Finset.sum_congr rfl fun j _ => congrArg (h (ix2 r j) * ·) ?_
  refine concatenate_pair_apply_left 1 a b hc (ix2 j (colLo k)) rfl (ix2 j k) fun c => ?_
  match c with
  | ⟨0, _⟩ => rfl
  | ⟨1, _⟩ => rfl

/-- Column `128 + k` of `h · [A | B]` is column `k` of `h · B`. -/
theorem prod_concat_hi (hc : Shape.Concatenates [Cert.KernelIdeal.S256x128, Cert.KernelIdeal.S256x128] Cert.KernelIdeal.S256x256 1)
    (h : FVec Ideal Cert.KernelIdeal.S8192x256 .f32) (a b : FVec Ideal Cert.KernelIdeal.S256x128 .f32)
    (r : Fin 8192) (k : Fin 128) :
    prod h (concatenate Cert.KernelIdeal.S256x256 1 [⟨Cert.KernelIdeal.S256x128, a⟩, ⟨Cert.KernelIdeal.S256x128, b⟩] hc)
      (ix2 r (colHi k)) = prod h b (ix2 r k) := by
  unfold prod
  refine Finset.sum_congr rfl fun j _ => congrArg (h (ix2 r j) * ·) ?_
  refine concatenate_pair_apply_right 1 a b hc (ix2 j (colHi k)) rfl rfl (ix2 j k) (fun c hc' => ?_) rfl
  match c with
  | ⟨0, _⟩ => rfl
  | ⟨1, _⟩ => exact absurd rfl hc'

/-! ## Aggregating the side-by-side product and cutting it is aggregating each product -/

/-- The left half of the aggregated `h · [A | B]` is the aggregated `h · A`: at `(r, k)`, `k < 128`, both are
    `Σ_{e lands on r} (Σ_j h (src e, j) · A (j, k)) · n e`. -/
theorem agg_lo (idxd idxs : IVec Cert.KernelIdeal.S270336x1 32) (nrm : FVec Ideal Cert.KernelIdeal.S270336 .f32)
    (h : FVec Ideal Cert.KernelIdeal.S8192x256 .f32) (a b : FVec Ideal Cert.KernelIdeal.S256x128 .f32) :
    (extractStridedSlice Cert.KernelIdeal.S8192x128 ![0, 0]
        (Host.scatterAdd (F := Ideal) (φ := .f32) Cert.KernelIdeal.scatter_S8192x256_S270336x1_S270336x256_1_0_0_1
          (broadcastInDim Cert.KernelIdeal.S8192x256 ![] Cert.KernelIdeal.Facts₀.bcast_S_S8192x256
            (constant (F := Ideal) Cert.KernelIdeal.S_ .f32 0x00000000#32))
          idxd
          (mulf (F := Ideal) (φ := .f32)
            (Host.gather Cert.KernelIdeal.gather_S8192x256_S270336x1_S270336x256_1_0_n_n_0_1_1256
              (prod h (concatenate Cert.KernelIdeal.S256x256 1 [⟨Cert.KernelIdeal.S256x128, a⟩, ⟨Cert.KernelIdeal.S256x128, b⟩]
                Cert.KernelIdeal.Facts₀.concatenates_S256x128_S256x128_S256x256_d1)) idxs)
            (broadcastInDim Cert.KernelIdeal.S270336x256 ![0, 1] Cert.KernelIdeal.Facts₀.bcast_S270336x1_S270336x256_0_1
              (broadcastInDim Cert.KernelIdeal.S270336x1 ![0] Cert.KernelIdeal.Facts₀.bcast_S270336_S270336x1_0 nrm))))
        Cert.KernelIdeal.Facts₀.slices_S8192x256_S8192x128_0_0 : FVec Ideal Cert.KernelIdeal.S8192x128 .f32)
      = Host.scatterAdd (F := Ideal) (φ := .f32) Cert.ReferenceIdeal.scatter_S8192x128_S270336x1_S270336x128_1_0_0_1
          (broadcastInDim Cert.ReferenceIdeal.S8192x128 ![] Cert.ReferenceIdeal.Facts₀.bcast_S_S8192x128
            (constant (F := Ideal) Cert.ReferenceIdeal.S_ .f32 0x00000000#32))
          idxd
          (mulf (F := Ideal) (φ := .f32)
            (Host.gather Cert.ReferenceIdeal.gather_S8192x128_S270336x1_S270336x128_1_0_n_n_0_1_1128
              (Host.dotGeneral Cert.ReferenceIdeal.dot_S8192x256_S256x128_S8192x128_1_0_0_1_n_n none h a) idxs)
            (broadcastInDim Cert.ReferenceIdeal.S270336x128 ![0, 1] Cert.ReferenceIdeal.Facts₀.bcast_S270336x1_S270336x128_0_1
              (broadcastInDim Cert.ReferenceIdeal.S270336x1 ![0] Cert.ReferenceIdeal.Facts₀.bcast_S270336_S270336x1_0 nrm))) := by
  funext i
  obtain ⟨r, k, rfl⟩ : ∃ (r : Fin 8192) (k : Fin 128), i = ix2 r k := ⟨i 0, i 1, eq_ix2 i⟩
  refine (extractStridedSlice_apply _ _ _ (ix2 r k) (ix2 r (colLo k)) fun c => ?_).trans ?_
  · match c with
    | ⟨0, _⟩ =>
      show r.val = 0 + r.val
      omega
    | ⟨1, _⟩ =>
      show k.val = 0 + k.val
      omega
  rw [ref_dot1]
  refine (agg_apply (N := 8192) (M := 270336) (C := 256) (by decide) _
    Cert.KernelIdeal.Facts₀.scatter_S8192x256_S270336x1_S270336x256_1_0_0_1_wf rfl _
    Cert.KernelIdeal.Facts₀.gather_S8192x256_S270336x1_S270336x256_1_0_n_n_0_1_1256_wf rfl _
    (fun _ => Ideal.ofBits_zero_f32) idxd idxs _ _ r (colLo k)).trans ?_
  refine Eq.symm ((agg_apply (N := 8192) (M := 270336) (C := 128) (by decide) _
    Cert.ReferenceIdeal.Facts₀.scatter_S8192x128_S270336x1_S270336x128_1_0_0_1_wf rfl _
    Cert.ReferenceIdeal.Facts₀.gather_S8192x128_S270336x1_S270336x128_1_0_n_n_0_1_1128_wf rfl _
    (fun _ => Ideal.ofBits_zero_f32) idxd idxs _ _ r k).trans ?_)
  refine Finset.sum_congr rfl fun e _ => ?_
  rw [bcast_col_apply (by decide), bcast_col_apply (by decide), prod_concat_lo]

/-- The right half of the aggregated `h · [A | B]` is the aggregated `h · B`: at `(r, k)`, `k < 128`, both are
    `Σ_{e lands on r} (Σ_j h (src e, j) · B (j, k)) · n e`. -/
theorem agg_hi (idxd idxs : IVec Cert.KernelIdeal.S270336x1 32) (nrm : FVec Ideal Cert.KernelIdeal.S270336 .f32)
    (h : FVec Ideal Cert.KernelIdeal.S8192x256 .f32) (a b : FVec Ideal Cert.KernelIdeal.S256x128 .f32) :
    (extractStridedSlice Cert.KernelIdeal.S8192x128 ![0, 128]
        (Host.scatterAdd (F := Ideal) (φ := .f32) Cert.KernelIdeal.scatter_S8192x256_S270336x1_S270336x256_1_0_0_1
          (broadcastInDim Cert.KernelIdeal.S8192x256 ![] Cert.KernelIdeal.Facts₀.bcast_S_S8192x256
            (constant (F := Ideal) Cert.KernelIdeal.S_ .f32 0x00000000#32))
          idxd
          (mulf (F := Ideal) (φ := .f32)
            (Host.gather Cert.KernelIdeal.gather_S8192x256_S270336x1_S270336x256_1_0_n_n_0_1_1256
              (prod h (concatenate Cert.KernelIdeal.S256x256 1 [⟨Cert.KernelIdeal.S256x128, a⟩, ⟨Cert.KernelIdeal.S256x128, b⟩]
                Cert.KernelIdeal.Facts₀.concatenates_S256x128_S256x128_S256x256_d1)) idxs)
            (broadcastInDim Cert.KernelIdeal.S270336x256 ![0, 1] Cert.KernelIdeal.Facts₀.bcast_S270336x1_S270336x256_0_1
              (broadcastInDim Cert.KernelIdeal.S270336x1 ![0] Cert.KernelIdeal.Facts₀.bcast_S270336_S270336x1_0 nrm))))
        Cert.KernelIdeal.Facts₀.slices_S8192x256_S8192x128_0_128 : FVec Ideal Cert.KernelIdeal.S8192x128 .f32)
      = Host.scatterAdd (F := Ideal) (φ := .f32) Cert.ReferenceIdeal.scatter_S8192x128_S270336x1_S270336x128_1_0_0_1
          (broadcastInDim Cert.ReferenceIdeal.S8192x128 ![] Cert.ReferenceIdeal.Facts₀.bcast_S_S8192x128
            (constant (F := Ideal) Cert.ReferenceIdeal.S_ .f32 0x00000000#32))
          idxd
          (mulf (F := Ideal) (φ := .f32)
            (Host.gather Cert.ReferenceIdeal.gather_S8192x128_S270336x1_S270336x128_1_0_n_n_0_1_1128
              (Host.dotGeneral Cert.ReferenceIdeal.dot_S8192x256_S256x128_S8192x128_1_0_0_1_n_n none h b) idxs)
            (broadcastInDim Cert.ReferenceIdeal.S270336x128 ![0, 1] Cert.ReferenceIdeal.Facts₀.bcast_S270336x1_S270336x128_0_1
              (broadcastInDim Cert.ReferenceIdeal.S270336x1 ![0] Cert.ReferenceIdeal.Facts₀.bcast_S270336_S270336x1_0 nrm))) := by
  funext i
  obtain ⟨r, k, rfl⟩ : ∃ (r : Fin 8192) (k : Fin 128), i = ix2 r k := ⟨i 0, i 1, eq_ix2 i⟩
  refine (extractStridedSlice_apply _ _ _ (ix2 r k) (ix2 r (colHi k)) fun c => ?_).trans ?_
  · match c with
    | ⟨0, _⟩ =>
      show r.val = 0 + r.val
      omega
    | ⟨1, _⟩ =>
      show k.val + 128 = 128 + k.val
      omega
  rw [ref_dot1]
  refine (agg_apply (N := 8192) (M := 270336) (C := 256) (by decide) _
    Cert.KernelIdeal.Facts₀.scatter_S8192x256_S270336x1_S270336x256_1_0_0_1_wf rfl _
    Cert.KernelIdeal.Facts₀.gather_S8192x256_S270336x1_S270336x256_1_0_n_n_0_1_1256_wf rfl _
    (fun _ => Ideal.ofBits_zero_f32) idxd idxs _ _ r (colHi k)).trans ?_
  refine Eq.symm ((agg_apply (N := 8192) (M := 270336) (C := 128) (by decide) _
    Cert.ReferenceIdeal.Facts₀.scatter_S8192x128_S270336x1_S270336x128_1_0_0_1_wf rfl _
    Cert.ReferenceIdeal.Facts₀.gather_S8192x128_S270336x1_S270336x128_1_0_n_n_0_1_1128_wf rfl _
    (fun _ => Ideal.ofBits_zero_f32) idxd idxs _ _ r k).trans ?_)
  refine Finset.sum_congr rfl fun e _ => ?_
  rw [bcast_col_apply (by decide), bcast_col_apply (by decide), prod_concat_hi]

/-! ## The decoder -/

/-- The decoder of the embedding `z`: entry `(i, j)` is the logistic function of the inner product of rows `i` and
    `j` of `z`, `1 / (1 + e^(-⟨z i, z j⟩))`. -/
def Dec (z : FVec Ideal Cert.KernelIdeal.S8192x128 .f32) : FVec Ideal Cert.KernelIdeal.S8192x8192 .f32 :=
  fun i => Ideal.logistic (∑ k : Fin 128, z (ix2 (i 0) k) * z (ix2 (i 1) k))

/-- One divided by one plus the exponential of the negated product `z · zᵀ`, entry by entry, is the decoder: the
    contraction of `z` with its transpose at `(i, j)` is the inner product of rows `i` and `j`, and
    `1 / (1 + e^(-x))` is the logistic function of `x` by definition. -/
theorem ref_decode (z : FVec Ideal Cert.ReferenceIdeal.S8192x128 .f32) :
    Host.divf (F := Ideal) (φ := .f32)
        (broadcastInDim Cert.ReferenceIdeal.S8192x8192 ![] Cert.ReferenceIdeal.Facts₀.bcast_S_S8192x8192
          (constant (F := Ideal) Cert.ReferenceIdeal.S_ .f32 0x3F800000#32))
        (addf (F := Ideal) (φ := .f32)
          (broadcastInDim Cert.ReferenceIdeal.S8192x8192 ![] Cert.ReferenceIdeal.Facts₀.bcast_S_S8192x8192
            (constant (F := Ideal) Cert.ReferenceIdeal.S_ .f32 0x3F800000#32))
          (Host.exp (Host.negf (Host.dotGeneral Cert.ReferenceIdeal.dot_S8192x128_S128x8192_S8192x8192_1_0_0_1_n_n none z
            (transpose Cert.ReferenceIdeal.S128x8192 [1, 0] z Cert.ReferenceIdeal.Facts₀.transposes_S8192x128_S128x8192_1_0)))))
      = Dec z := by
  funext i
  have hdot : Host.dotGeneral Cert.ReferenceIdeal.dot_S8192x128_S128x8192_S8192x8192_1_0_0_1_n_n none z
      (transpose Cert.ReferenceIdeal.S128x8192 [1, 0] z Cert.ReferenceIdeal.Facts₀.transposes_S8192x128_S128x8192_1_0) i
      = ∑ k : Fin 128, z (ix2 (i 0) k) * z (ix2 (i 1) k) := by
    refine (Ideal.dotGeneral_apply _ none .single z _ i).trans ?_
    refine (sum_contr_eq_prod Cert.ReferenceIdeal.dot_S8192x128_S128x8192_S8192x8192_1_0_0_1_n_n rfl rfl
      (fun _ _ => rfl) (fun _ _ => rfl) (fun _ _ => rfl) (fun _ _ => rfl) z _ i).trans ?_
    unfold prod
    refine Finset.sum_congr rfl fun k _ => congrArg (z (ix2 (i 0) k) * ·) ?_
    refine transpose_apply [1, 0] z _ (ix2 k (i 1)) (ix2 (i 1) k) fun c => ?_
    match c with
    | ⟨0, _⟩ => rfl
    | ⟨1, _⟩ => rfl
  show Ideal.div (Ideal.ofBits .f32 0x3F800000#32) (Ideal.ofBits .f32 0x3F800000#32 + Ideal.exp (-(
    Host.dotGeneral Cert.ReferenceIdeal.dot_S8192x128_S128x8192_S8192x8192_1_0_0_1_n_n none z
      (transpose Cert.ReferenceIdeal.S128x8192 [1, 0] z Cert.ReferenceIdeal.Facts₀.transposes_S8192x128_S128x8192_1_0) i)))
    = Ideal.logistic (∑ k : Fin 128, z (ix2 (i 0) k) * z (ix2 (i 1) k))
  rw [hdot, Ideal.ofBits_one_f32]
  rfl

end Cert.Bridge

end
-- ==== Proof.RefStages.lean ====
/-
  The reference's computation in named stages, as functions of the argument arrays: the edges' source and target
  index arrays with the self loops appended; a negative index wrapped once by the number of nodes; the in-degree as an
  accumulating scatter of ones; its inverse square root where positive; the per-edge factor; one aggregation (gather the
  rows along the sources, scale each gathered row by its edge's factor, accumulate along the targets), for 256 and for
  128 columns; the hidden layer; a head (mu or logstd); the reparametrised z; the decoder. The reference program's three
  result terms are these stages of its argument arrays.
-/
import proofs.«137605_j893353197865_1_alg».proof.Proof.Gen.ReferenceIdeal
import proofs.«137605_j893353197865_1_alg».proof.Proof.RefRun

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The edges' sources, then every node once (the self loops). -/
def src (x1 : IVec S2x262144 32) : IVec S270336 32 :=
  concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0
/-- The edges' targets, then every node once. -/
def dst (x1 : IVec S2x262144 32) : IVec S270336 32 :=
  concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0
/-- A negative index wrapped once by the number of nodes. -/
def wrap (v : IVec S270336 32) : IVec S270336 32 :=
  select (cmpi .slt v (broadcastInDim S270336 ![] bcast_S_S270336 (constantI S_ 32 0#32))) (addi v (broadcastInDim S270336 ![] bcast_S_S270336 (constantI S_ 32 8192#32))) v
/-- The in-degree: ones accumulated along the targets. -/
def deg (x1 : IVec S2x262144 32) : FVec F S8192 .f32 :=
  Host.scatterAdd scatter_S8192_S270336x1_S270336_n_0_0_1 (broadcastInDim S8192 ![] bcast_S_S8192 (constant S_ .f32 0x00000000#32)) (broadcastInDim S270336x1 ![0] bcast_S270336_S270336x1_0 (dst x1)) (broadcastInDim S270336 ![] bcast_S_S270336 (constant S_ .f32 0x3F800000#32))
/-- Its inverse square root where the degree is positive, zero elsewhere. -/
def dinv (x1 : IVec S2x262144 32) : FVec F S8192 .f32 :=
  select (cmpf (F := F) .ogt (deg x1) (broadcastInDim S8192 ![] bcast_S_S8192 (constant S_ .f32 0x00000000#32))) (Host.rsqrt (deg x1)) (broadcastInDim S8192 ![] bcast_S_S8192 (constant S_ .f32 0x00000000#32))
/-- The per-edge factor dinv[src] * dinv[dst]. -/
def nrm (x1 : IVec S2x262144 32) : FVec F S270336 .f32 :=
  mulf (Host.gather gather_S8192_S270336x1_S270336_n_0_n_n_0_1_1 (dinv x1) (broadcastInDim S270336x1 ![0] bcast_S270336_S270336x1_0 (wrap (src x1)))) (Host.gather gather_S8192_S270336x1_S270336_n_0_n_n_0_1_1 (dinv x1) (broadcastInDim S270336x1 ![0] bcast_S270336_S270336x1_0 (wrap (dst x1))))
/-- One aggregation of a [8192, 256] array. -/
def agg256 (x1 : IVec S2x262144 32) (X : FVec F S8192x256 .f32) : FVec F S8192x256 .f32 :=
  Host.scatterAdd scatter_S8192x256_S270336x1_S270336x256_1_0_0_1 (broadcastInDim S8192x256 ![] bcast_S_S8192x256 (constant S_ .f32 0x00000000#32)) (broadcastInDim S270336x1 ![0] bcast_S270336_S270336x1_0 (dst x1)) (mulf (Host.gather gather_S8192x256_S270336x1_S270336x256_1_0_n_n_0_1_1256 X (broadcastInDim S270336x1 ![0] bcast_S270336_S270336x1_0 (wrap (src x1)))) (broadcastInDim S270336x256 ![0, 1] bcast_S270336x1_S270336x256_0_1 (broadcastInDim S270336x1 ![0] bcast_S270336_S270336x1_0 (nrm x1))))
/-- One aggregation of a [8192, 128] array. -/
def agg128 (x1 : IVec S2x262144 32) (X : FVec F S8192x128 .f32) : FVec F S8192x128 .f32 :=
  Host.scatterAdd scatter_S8192x128_S270336x1_S270336x128_1_0_0_1 (broadcastInDim S8192x128 ![] bcast_S_S8192x128 (constant S_ .f32 0x00000000#32)) (broadcastInDim S270336x1 ![0] bcast_S270336_S270336x1_0 (dst x1)) (mulf (Host.gather gather_S8192x128_S270336x1_S270336x128_1_0_n_n_0_1_1128 X (broadcastInDim S270336x1 ![0] bcast_S270336_S270336x1_0 (wrap (src x1)))) (broadcastInDim S270336x128 ![0, 1] bcast_S270336x1_S270336x128_0_1 (broadcastInDim S270336x1 ![0] bcast_S270336_S270336x1_0 (nrm x1))))
/-- The hidden layer: relu(aggregate(x W1) + b1). -/
def hid (x0 : FVec F S8192x512 .f32) (x1 : IVec S2x262144 32) (x3 : FVec F S512x256 .f32) (x4 : FVec F S256 .f32) : FVec F S8192x256 .f32 :=
  maximumf (addf (agg256 x1 (Host.dotGeneral dot_S8192x512_S512x256_S8192x256_1_0_0_1_n_n none x0 x3)) (broadcastInDim S8192x256 ![0, 1] bcast_S1x256_S8192x256_0_1 (broadcastInDim S1x256 ![1] bcast_S256_S1x256_1 x4))) (broadcastInDim S8192x256 ![] bcast_S_S8192x256 (constant S_ .f32 0x00000000#32))
/-- A head: aggregate(h W) + b. -/
def head (x0 : FVec F S8192x512 .f32) (x1 : IVec S2x262144 32) (x3 : FVec F S512x256 .f32) (x4 : FVec F S256 .f32)
    (w : FVec F S256x128 .f32) (b : FVec F S128 .f32) : FVec F S8192x128 .f32 :=
  addf (agg128 x1 (Host.dotGeneral dot_S8192x256_S256x128_S8192x128_1_0_0_1_n_n none (hid x0 x1 x3 x4) w)) (broadcastInDim S8192x128 ![0, 1] bcast_S1x128_S8192x128_0_1 (broadcastInDim S1x128 ![1] bcast_S128_S1x128_1 b))
/-- The reparametrised z = eps * exp(logstd) + mu. -/
def zz (x0 : FVec F S8192x512 .f32) (x1 : IVec S2x262144 32) (x2 : FVec F S8192x128 .f32) (x3 : FVec F S512x256 .f32) (x4 : FVec F S256 .f32)
    (x5 : FVec F S256x128 .f32) (x6 : FVec F S128 .f32) (x7 : FVec F S256x128 .f32) (x8 : FVec F S128 .f32) : FVec F S8192x128 .f32 :=
  addf (mulf x2 (Host.exp (head x0 x1 x3 x4 x7 x8))) (head x0 x1 x3 x4 x5 x6)
/-- The decoder: 1 / (1 + exp(-(z z^T))). -/
def dec (z : FVec F S8192x128 .f32) : FVec F S8192x8192 .f32 :=
  Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x128_S128x8192_S8192x8192_1_0_0_1_n_n none z (transpose S128x8192 [1, 0] z transposes_S8192x128_S128x8192_1_0)))))

variable (m : (ℓ : Loc nD τ sig) → Buf (Elt F) ℓ) (c : Dev nD)

set_option maxRecDepth 65536 in
theorem res_mu : ValueP.res_main_v90 m c = head (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5)) (m ((c.tc : Thread nD τ).loc main_arg6)) := by
  unfold ValueP.res_main_v90 head agg128 hid agg256 nrm dinv deg wrap src dst
  rfl

set_option maxRecDepth 65536 in
theorem res_ls : ValueP.res_main_v133 m c = head (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg7)) (m ((c.tc : Thread nD τ).loc main_arg8)) := by
  unfold ValueP.res_main_v133 head agg128 hid agg256 nrm dinv deg wrap src dst
  rfl

set_option maxRecDepth 65536 in
theorem res_adj : ValueP.res_main_v144 m c = dec (zz (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))) := by
  unfold ValueP.res_main_v144 dec zz head agg128 hid agg256 nrm dinv deg wrap src dst
  rfl

end Cert.ReferenceIdeal.Stage

end
-- ==== Proof.KI.Bridge.lean ====
/-
  The kernel program's three results are the reference's. Layer 1: the call's result array is the whole product
  x W1, which is the reference's contraction, and the host lines after it (gather along the sources, scale each
  gathered row by the per-edge factor, accumulate along the targets, add the bias, clip at zero) are the reference's
  own lines on the same values. Layer 2: the call's result is h [Wmu | Wls]; aggregating its 256 columns and then
  slicing the two halves gives, column by column, the aggregates of h Wmu and h Wls that the reference forms
  separately. The reparametrised z is then the same array on both sides, and the decoder's result array, the
  logistic function of the inner products of z's rows, is the reference's 1 / (1 + exp(-(z z^T))) entry by entry.
  No finiteness is used: every step is the same sum of the same products.
-/
import proofs.«137605_j893353197865_1_alg».proof.Proof.Gen.KernelIdeal.Regions
import proofs.«137605_j893353197865_1_alg».proof.Proof.KI.Run
import proofs.«137605_j893353197865_1_alg».proof.Proof.KI.Tiles0
import proofs.«137605_j893353197865_1_alg».proof.Proof.KI.Tiles1
import proofs.«137605_j893353197865_1_alg».proof.Proof.KI.Tiles2
import proofs.«137605_j893353197865_1_alg».proof.Proof.Algebra
import proofs.«137605_j893353197865_1_alg».proof.Proof.RefRun
import proofs.«137605_j893353197865_1_alg».proof.Proof.RefStages
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Cert.Gcn.Dense (prod)

variable (m : (ℓ : Loc nD τ sig) → Buf (Elt Ideal) ℓ)

/-! ## Buffers a call and the host lines around it leave alone -/

theorem W8_W4 (c : Dev nD) (r : Ref sig .tc) (h7 : r ≠ main_v49) (h6 : r ∉ hostOps1_2_W) (h5 : r ∉ hostOps1_1_W)
    (h4 : r ∉ hostOps1_W) : W8 m c (Proc.devRef .tc r) = W4 m c (Proc.devRef .tc r) :=
  (W8_of_ne m c r h7).trans <| (StableHlo.after_of_writes_sub hostOps1_2 _ hostOps1_2_writes h6).trans <|
  (StableHlo.after_of_writes_sub hostOps1_1 _ hostOps1_1_writes h5).trans <|
  (StableHlo.after_of_writes_sub hostOps1 _ hostOps1_writes h4)
theorem W3_W0 (c : Dev nD) (r : Ref sig .tc) (h2 : r ∉ hostOps0_2_W) (h1 : r ∉ hostOps0_1_W) (h0 : r ∉ hostOps0_W) :
    W3 m c (Proc.devRef .tc r) = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W8_v5 (c : Dev nD) : W8 m c (Proc.devRef .tc main_v5) = W3 m c (Proc.devRef .tc main_v5) :=
  (W8_W4 m c main_v5 (by decide) (by decide) (by decide) (by decide)).trans (W4_of_ne m c main_v5 (by decide))
theorem W4_v5 (c : Dev nD) : W4 m c (Proc.devRef .tc main_v5) = W3 m c (Proc.devRef .tc main_v5) := W4_of_ne m c main_v5 (by decide)
theorem W8_v6 (c : Dev nD) : W8 m c (Proc.devRef .tc main_v6) = W3 m c (Proc.devRef .tc main_v6) :=
  (W8_W4 m c main_v6 (by decide) (by decide) (by decide) (by decide)).trans (W4_of_ne m c main_v6 (by decide))
theorem W4_v6 (c : Dev nD) : W4 m c (Proc.devRef .tc main_v6) = W3 m c (Proc.devRef .tc main_v6) := W4_of_ne m c main_v6 (by decide)
theorem W8_v29 (c : Dev nD) : W8 m c (Proc.devRef .tc main_v29) = W3 m c (Proc.devRef .tc main_v29) :=
  (W8_W4 m c main_v29 (by decide) (by decide) (by decide) (by decide)).trans (W4_of_ne m c main_v29 (by decide))
theorem W4_v29 (c : Dev nD) : W4 m c (Proc.devRef .tc main_v29) = W3 m c (Proc.devRef .tc main_v29) := W4_of_ne m c main_v29 (by decide)
theorem W8_arg2 (c : Dev nD) : W8 m c (Proc.devRef .tc main_arg2) = m ((c : Thread nD τ).loc main_arg2) :=
  (W8_W4 m c main_arg2 (by decide) (by decide) (by decide) (by decide)).trans <| (W4_of_ne m c main_arg2 (by decide)).trans <|
  W3_W0 m c main_arg2 (by decide) (by decide) (by decide)
theorem W8_arg6 (c : Dev nD) : W8 m c (Proc.devRef .tc main_arg6) = m ((c : Thread nD τ).loc main_arg6) :=
  (W8_W4 m c main_arg6 (by decide) (by decide) (by decide) (by decide)).trans <| (W4_of_ne m c main_arg6 (by decide)).trans <|
  W3_W0 m c main_arg6 (by decide) (by decide) (by decide)
theorem W8_arg8 (c : Dev nD) : W8 m c (Proc.devRef .tc main_arg8) = m ((c : Thread nD τ).loc main_arg8) :=
  (W8_W4 m c main_arg8 (by decide) (by decide) (by decide) (by decide)).trans <| (W4_of_ne m c main_arg8 (by decide)).trans <|
  W3_W0 m c main_arg8 (by decide) (by decide) (by decide)
theorem W4_arg4 (c : Dev nD) : W4 m c (Proc.devRef .tc main_arg4) = m ((c : Thread nD τ).loc main_arg4) :=
  (W4_of_ne m c main_arg4 (by decide)).trans (W3_W0 m c main_arg4 (by decide) (by decide) (by decide))
theorem W4_arg5 (c : Dev nD) : W4 m c (Proc.devRef .tc main_arg5) = m ((c : Thread nD τ).loc main_arg5) :=
  (W4_of_ne m c main_arg5 (by decide)).trans (W3_W0 m c main_arg5 (by decide) (by decide) (by decide))
theorem W4_arg7 (c : Dev nD) : W4 m c (Proc.devRef .tc main_arg7) = m ((c : Thread nD τ).loc main_arg7) :=
  (W4_of_ne m c main_arg7 (by decide)).trans (W3_W0 m c main_arg7 (by decide) (by decide) (by decide))
theorem W3_arg0 (c : Dev nD) : W3 m c (Proc.devRef .tc main_arg0) = m ((c : Thread nD τ).loc main_arg0) :=
  W3_W0 m c main_arg0 (by decide) (by decide) (by decide)
theorem W3_arg3 (c : Dev nD) : W3 m c (Proc.devRef .tc main_arg3) = m ((c : Thread nD τ).loc main_arg3) :=
  W3_W0 m c main_arg3 (by decide) (by decide) (by decide)

/-- The layer-1 call's result array: the whole product of the launch contents of x and W1. -/
theorem out1 (c : Dev nD) : W4 m c (Proc.devRef .tc main_v30)
    = prod (m ((c : Thread nD τ).loc main_arg0) : S8192x512.Idx → EReal) (m ((c : Thread nD τ).loc main_arg3) : S512x256.Idx → EReal) := by
  rw [W4_out, val0]
  show prod (W3 m c (Proc.devRef .tc main_arg0) : S8192x512.Idx → EReal) (W3 m c (Proc.devRef .tc main_arg3) : S512x256.Idx → EReal) = _
  rw [W3_arg0, W3_arg3]

/-! ## The host stages of the kernel program are the reference's -/

set_option maxHeartbeats 4000000 in
/-- The source index array (edges' sources, then every node once). -/
theorem k_src (c : Dev nD) : W3 m c (Proc.devRef .tc main_v5) = Cert.ReferenceIdeal.Stage.src (m ((c : Thread nD τ).loc main_arg1)) := by
  dsimp only [W3, W2, W1, hostOps0, hostOps0_1, hostOps0_2]
  after_results_simp
  rfl

set_option maxHeartbeats 4000000 in
/-- The target index array. -/
theorem k_dst (c : Dev nD) : W3 m c (Proc.devRef .tc main_v6) = Cert.ReferenceIdeal.Stage.dst (m ((c : Thread nD τ).loc main_arg1)) := by
  dsimp only [W3, W2, W1, hostOps0, hostOps0_1, hostOps0_2]
  after_results_simp
  rfl

set_option maxHeartbeats 4000000 in
/-- After the first host stretch: the source and target index arrays, -/
theorem k_src1 (c : Dev nD) : W1 m c (Proc.devRef .tc main_v5) = Cert.ReferenceIdeal.Stage.src (m ((c : Thread nD τ).loc main_arg1)) := by
  dsimp only [W1, hostOps0]
  after_results_simp
  rfl
set_option maxHeartbeats 4000000 in
theorem k_dst1 (c : Dev nD) : W1 m c (Proc.devRef .tc main_v6) = Cert.ReferenceIdeal.Stage.dst (m ((c : Thread nD τ).loc main_arg1)) := by
  dsimp only [W1, hostOps0]
  after_results_simp
  rfl
set_option maxHeartbeats 4000000 in
/-- the in-degree's test against zero, -/
theorem k_v12 (c : Dev nD) : W1 m c (Proc.devRef .tc main_v12)
    = cmpf (F := Ideal) .ogt (Cert.ReferenceIdeal.Stage.deg (F := Ideal) (m ((c : Thread nD τ).loc main_arg1))) (broadcastInDim S8192 ![] bcast_S_S8192 (constant S_ .f32 0x00000000#32)) := by
  dsimp only [W1, hostOps0]
  after_results_simp
  rfl
set_option maxHeartbeats 4000000 in
/-- its inverse square root, -/
theorem k_v13 (c : Dev nD) : W1 m c (Proc.devRef .tc main_v13) = Host.rsqrt (Cert.ReferenceIdeal.Stage.deg (F := Ideal) (m ((c : Thread nD τ).loc main_arg1))) := by
  dsimp only [W1, hostOps0]
  after_results_simp
  rfl
set_option maxHeartbeats 4000000 in
/-- and the zero the selection falls back to. -/
theorem k_cst2 (c : Dev nD) : W1 m c (Proc.devRef .tc main_cst_2) = constant (F := Ideal) S_ .f32 0x00000000#32 := by
  dsimp only [W1, hostOps0]
  after_results_simp

set_option maxHeartbeats 4000000 in
/-- After the selection: the inverse square root of the degree where it is positive. -/
theorem k_dinv (c : Dev nD) : W2 m c (Proc.devRef .tc main_v14) = Cert.ReferenceIdeal.Stage.dinv (F := Ideal) (m ((c : Thread nD τ).loc main_arg1)) := by
  show StableHlo.after hostOps0_1 (W1 m c) (Proc.devRef .tc main_v14) = _
  have e12 := k_v12 m c
  have e13 := k_v13 m c
  have e2 := k_cst2 m c
  generalize W1 m c = V at e12 e13 e2 ⊢
  dsimp only [hostOps0_1]
  after_results_simp
  rw [e12, e13, e2]
  -- the selection's operands pass through type transports that are the identity
  refine (eq_of_heq (cast_heq _ _)).trans ?_
  show select _ _ _ = select _ _ _
  refine congr (congr (congrArg select ?_) ?_) ?_
  · exact eq_of_heq (cast_heq _ _)
  · exact eq_of_heq (cast_heq _ _)
  · refine (eq_of_heq (cast_heq _ _)).trans ((eq_of_heq (cast_heq _ _)).trans ?_)
    exact congrArg (fun t : FVec Ideal S_ .f32 => broadcastInDim S8192 ![] bcast_S_S8192 t) (eq_of_heq (cast_heq _ _))

theorem W2_v5 (c : Dev nD) : W2 m c (Proc.devRef .tc main_v5) = Cert.ReferenceIdeal.Stage.src (m ((c : Thread nD τ).loc main_arg1)) :=
  (StableHlo.after_of_writes_sub hostOps0_1 _ hostOps0_1_writes (by decide)).trans (k_src1 m c)
theorem W2_v6 (c : Dev nD) : W2 m c (Proc.devRef .tc main_v6) = Cert.ReferenceIdeal.Stage.dst (m ((c : Thread nD τ).loc main_arg1)) :=
  (StableHlo.after_of_writes_sub hostOps0_1 _ hostOps0_1_writes (by decide)).trans (k_dst1 m c)

set_option maxHeartbeats 4000000 in
/-- The per-edge factor. -/
theorem k_nrm (c : Dev nD) : W3 m c (Proc.devRef .tc main_v29) = Cert.ReferenceIdeal.Stage.nrm (F := Ideal) (m ((c : Thread nD τ).loc main_arg1)) := by
  show StableHlo.after hostOps0_2 (W2 m c) (Proc.devRef .tc main_v29) = _
  have e14 := k_dinv m c
  have e5 := W2_v5 m c
  have e6 := W2_v6 m c
  generalize W2 m c = V at e14 e5 e6 ⊢
  dsimp only [hostOps0_2]
  after_results_simp
  rw [e14, e5, e6]
  rfl

set_option maxHeartbeats 16000000 in
/-- The hidden layer: the layer-1 call's result is the reference's contraction, and the host lines after it are the
    reference's. -/
theorem k_hid (c : Dev nD) : W7 m c (Proc.devRef .tc main_v47) = Cert.ReferenceIdeal.Stage.hid (F := Ideal) (m ((c : Thread nD τ).loc main_arg0)) (m ((c : Thread nD τ).loc main_arg1)) (m ((c : Thread nD τ).loc main_arg3)) (m ((c : Thread nD τ).loc main_arg4)) := by
  dsimp only [W7, W6, W5, hostOps1, hostOps1_1, hostOps1_2]
  after_results_simp
  rw [out1, W4_v5, W4_v6, W4_v29, W4_arg4, k_src, k_dst, k_nrm,
    ← Cert.Bridge.ref_dot0 (m ((c : Thread nD τ).loc main_arg0)) (m ((c : Thread nD τ).loc main_arg3))]
  rfl

set_option maxHeartbeats 4000000 in
/-- The concatenated layer-2 weights. -/
theorem k_wcat (c : Dev nD) : W7 m c (Proc.devRef .tc main_v48)
    = concatenate S256x256 1 [⟨S256x128, (m ((c : Thread nD τ).loc main_arg5))⟩, ⟨S256x128, (m ((c : Thread nD τ).loc main_arg7))⟩] concatenates_S256x128_S256x128_S256x256_d1 := by
  dsimp only [W7, W6, W5, hostOps1, hostOps1_1, hostOps1_2]
  after_results_simp
  rfl

/-- The layer-2 call's result array: the product of the hidden layer with the concatenated weights. -/
theorem k_mlin (c : Dev nD) : W8 m c (Proc.devRef .tc main_v49)
    = prod (Cert.ReferenceIdeal.Stage.hid (F := Ideal) (m ((c : Thread nD τ).loc main_arg0)) (m ((c : Thread nD τ).loc main_arg1)) (m ((c : Thread nD τ).loc main_arg3)) (m ((c : Thread nD τ).loc main_arg4)) : S8192x256.Idx → EReal)
        (concatenate S256x256 1 [⟨S256x128, (m ((c : Thread nD τ).loc main_arg5))⟩, ⟨S256x128, (m ((c : Thread nD τ).loc main_arg7))⟩] concatenates_S256x128_S256x128_S256x256_d1 : S256x256.Idx → EReal) := by
  rw [W8_out, val1]
  show prod (W7 m c (Proc.devRef .tc main_v47) : S8192x256.Idx → EReal) (W7 m c (Proc.devRef .tc main_v48) : S256x256.Idx → EReal) = _
  rw [k_hid, k_wcat]

set_option maxHeartbeats 16000000 in
/-- `mu`: the low column half of the 256-column aggregate is the aggregate of h Wmu. -/
theorem k_mu (c : Dev nD) : W9 m c (Proc.devRef .tc main_v66)
    = Cert.ReferenceIdeal.Stage.head (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  dsimp only [W9, hostOps2]
  after_results_simp
  rw [k_mlin, W8_v5, W8_v6, W8_v29, W8_arg6, k_src, k_dst, k_nrm, Cert.Bridge.agg_lo]
  rfl

set_option maxHeartbeats 16000000 in
/-- `logstd`: the high column half is the aggregate of h Wls. -/
theorem k_ls (c : Dev nD) : W9 m c (Proc.devRef .tc main_v70)
    = Cert.ReferenceIdeal.Stage.head (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  dsimp only [W9, hostOps2]
  after_results_simp
  rw [k_mlin, W8_v5, W8_v6, W8_v29, W8_arg8, k_src, k_dst, k_nrm, Cert.Bridge.agg_hi]
  rfl

set_option maxHeartbeats 32000000 in
/-- The reparametrised z. -/
theorem k_z (c : Dev nD) : W9 m c (Proc.devRef .tc main_v73)
    = Cert.ReferenceIdeal.Stage.zz (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W9, hostOps2]
  after_results_simp
  rw [k_mlin, W8_v5, W8_v6, W8_v29, W8_arg2, W8_arg6, W8_arg8, k_src, k_dst, k_nrm, Cert.Bridge.agg_lo, Cert.Bridge.agg_hi]
  rfl

/-- The decoder's result array: the logistic function of the inner products of z's rows, which is the reference's
    1 / (1 + exp(-(z z^T))). -/
theorem k_adj (c : Dev nD) : W10 m c (Proc.devRef .tc main_v74)
    = Cert.ReferenceIdeal.Stage.dec (F := Ideal) (Cert.ReferenceIdeal.Stage.zz (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [W10_out, val2]
  show Cert.Bridge.Dec (W9 m c (Proc.devRef .tc main_v73)) = _
  rw [k_z]
  exact (Cert.Bridge.ref_decode _).symm

/-! ## The three results -/

variable (m' : (ℓ : Loc Cert.ReferenceIdeal.nD Cert.ReferenceIdeal.τ Cert.ReferenceIdeal.sig) → Buf (Elt Ideal) ℓ)

/-- The kernel program's `mu` is the reference's. -/
theorem bridge_mu (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    (W10 m c (Proc.devRef .tc main_v66) : S8192x128.Idx → EReal) = (Cert.ReferenceIdeal.ValueP.res_main_v90 m' c : S8192x128.Idx → EReal) := by
  rw [W10_of_ne m c main_v66 (by decide), k_mu, Cert.ReferenceIdeal.Stage.res_mu, h0, h1, h3, h4, h5, h6]

/-- The kernel program's `logstd` is the reference's. -/
theorem bridge_ls (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    (W10 m c (Proc.devRef .tc main_v70) : S8192x128.Idx → EReal) = (Cert.ReferenceIdeal.ValueP.res_main_v133 m' c : S8192x128.Idx → EReal) := by
  rw [W10_of_ne m c main_v70 (by decide), k_ls, Cert.ReferenceIdeal.Stage.res_ls, h0, h1, h3, h4, h7, h8]

/-- The kernel program's reconstructed adjacency is the reference's. -/
theorem bridge_adj (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    (W10 m c (Proc.devRef .tc main_v74) : S8192x8192.Idx → EReal) = (Cert.ReferenceIdeal.ValueP.res_main_v144 m' c : S8192x8192.Idx → EReal) := by
  rw [k_adj, Cert.ReferenceIdeal.Stage.res_adj, h0, h1, h2, h3, h4, h5, h6, h7, h8]

end Cert.KernelIdeal.Hand

end
-- ==== Proof.lean ====
/-
  The certificate of a variational graph auto-encoder's forward pass: two graph-convolution layers (a dense product in a
  kernel call, then on the host a gather along the edges' sources, a per-edge scaling, an accumulation along the
  targets, a bias), the reparametrisation z = eps * exp(logstd) + mu, and the decoder sigmoid(z z^T) in a third call,
  against the plain reference. The three programs' frames; the kernel's idealisation rewrote nothing; and at the ideal
  instance the kernel program's three results are the reference's, entry by entry: each call's result array is the
  whole product its tiles make up, the concatenated layer-2 weights give column by column the two separate products,
  and the decoder's logistic function is 1 / (1 + exp(-x)).
-/
import proofs.«137605_j893353197865_1_alg».proof.Defs
import proofs.«137605_j893353197865_1_alg».proof.Proof.Gen.Kernel
import proofs.«137605_j893353197865_1_alg».proof.Proof.Gen.KernelIdeal
import proofs.«137605_j893353197865_1_alg».proof.Proof.Gen.ReferenceIdeal
import proofs.«137605_j893353197865_1_alg».proof.Proof.Gen.Pre_finite_inputs
import proofs.«137605_j893353197865_1_alg».proof.Proof.K.Frame
import proofs.«137605_j893353197865_1_alg».proof.Proof.KI.Frame
import proofs.«137605_j893353197865_1_alg».proof.Proof.KI.Bridge
import proofs.«137605_j893353197865_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
/-- The reference has no kernel call: its frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

open Cert.KernelIdeal Cert.KernelIdeal.Hand in
/-- At the ideal instance both programs run, and from memories agreeing on the arguments they end with the same three
    results: the last boundary's contents of the kernel program at its three result buffers. -/
theorem algebraic : Cert.algebraic_KernelIdeal_ReferenceIdeal := by
  intro m ρ m' ρ' _ hag
  refine ⟨fun c => W10 m c (Proc.devRef .tc main_v74), fun c => W10 m c (Proc.devRef .tc main_v66),
    fun c => W10 m c (Proc.devRef .tc main_v70), ?_, ?_⟩
  · exact (θ_run Cert.KernelIdeal.defs _ _).mono (fun r h c =>
      ⟨h c _ (mem_uc main_v74 (by decide)), h c _ (mem_uc main_v66 (by decide)), h c _ (mem_uc main_v70 (by decide)),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c),
       (h c _ (mem_uc main_arg4 (by decide))).trans (W10_main_arg4 m c),
       (h c _ (mem_uc main_arg5 (by decide))).trans (W10_main_arg5 m c),
       (h c _ (mem_uc main_arg6 (by decide))).trans (W10_main_arg6 m c),
       (h c _ (mem_uc main_arg7 (by decide))).trans (W10_main_arg7 m c),
       (h c _ (mem_uc main_arg8 (by decide))).trans (W10_main_arg8 m c)⟩)
      (run_all m ρ)
  · refine (θ_run Cert.ReferenceIdeal.defs _ _).mono (fun r h c => ?_) (Cert.ReferenceIdeal.ValueP.run (F := Ideal) m' ρ')
    obtain ⟨a0, a1, a2, a3, a4, a5, a6, a7, a8⟩ := hag c
    exact ⟨(h c).1.trans (bridge_adj m m' c a0 a1 a2 a3 a4 a5 a6 a7 a8).symm,
      (h c).2.1.trans (bridge_mu m m' c a0 a1 a3 a4 a5 a6).symm,
      (h c).2.2.1.trans (bridge_ls m m' c a0 a1 a3 a4 a7 a8).symm, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
